-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S100000x64 : Shape := ⟨2, ![100000, 64]⟩
abbrev S10000x32 : Shape := ⟨2, ![10000, 32]⟩
abbrev S10000x1 : Shape := ⟨2, ![10000, 1]⟩
abbrev S10000x64 : Shape := ⟨2, ![10000, 64]⟩
abbrev S1700000x64 : Shape := ⟨2, ![1700000, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 67
  | .vmem => 26
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x64, .f32⟩
  | .hbm, ⟨33, _⟩ => ⟨S100000x64, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .bf16⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S1x64, .f32⟩
  | .hbm, ⟨49, _⟩ => ⟨S100000x64, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .bf16⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S1x16, .f32⟩
  | .hbm, ⟨66, _⟩ => ⟨S100000x16, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S10000x1, .f32⟩
  | .local _ .vmem, ⟨6, _⟩ => ⟨S10000x1, .f32⟩
  | .local _ .vmem, ⟨7, _⟩ => ⟨S10000x64, .bf16⟩
  | .local _ .vmem, ⟨8, _⟩ => ⟨S10000x64, .bf16⟩
  | .local _ .vmem, ⟨9, _⟩ => ⟨S10000x64, .f32⟩
  | .local _ .vmem, ⟨10, _⟩ => ⟨S10000x64, .f32⟩
  | .local _ .vmem, ⟨11, _⟩ => ⟨S10000x1, .f32⟩
  | .local _ .vmem, ⟨12, _⟩ => ⟨S10000x1, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S10000x1, .f32⟩
  | .local _ .vmem, ⟨20, _⟩ => ⟨S10000x1, .f32⟩
  | .local _ .vmem, ⟨21, _⟩ => ⟨S1x64, .f32⟩
  | .local _ .vmem, ⟨22, _⟩ => ⟨S64x16, .f32⟩
  | .local _ .vmem, ⟨23, _⟩ => ⟨S1x16, .f32⟩
  | .local _ .vmem, ⟨24, _⟩ => ⟨S10000x16, .f32⟩
  | .local _ .vmem, ⟨25, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S10000x64_S10000x64 : S10000x64.ShapeCasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1700000x1_S1700000_n_0_0_1_wf : ScatterDims.WF S100000 S1700000x1 S1700000 [] [0] [0] 1
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .bf16 = 32 ∨ (Rect.block (s := S100000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .bf16 = 32 ∨ (Rect.block (s := S100000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x16 : Shape := ⟨2, ![100000, 16]⟩
abbrev S1x16 : Shape := ⟨2, ![1, 16]⟩

abbrev nBuf : Space → Nat
  | .hbm => 107
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S1700000x1, .f32⟩
  | .hbm, ⟨91, _⟩ => ⟨S1700000x64, .f32⟩
  | .hbm, ⟨92, _⟩ => ⟨S1700000x64, .f32⟩
  | .hbm, ⟨93, _⟩ => ⟨S_, .f32⟩
  | .hbm, ⟨94, _⟩ => ⟨S100000x64, .f32⟩
  | .hbm, ⟨95, _⟩ => ⟨S1700000x1, .i32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x16, .f32⟩
  | .hbm, ⟨104, _⟩ => ⟨S1x16, .f32⟩
  | .hbm, ⟨105, _⟩ => ⟨S100000x16, .f32⟩
  | .hbm, ⟨106, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KRun.lean ====
/-
  The idealized kernel's run with its result named.

  The program is three grid regions among stretches of host operations. Every weakly fair execution from a memory with
  zero counters terminates without a fault; at the end every buffer that outlives a region holds the last boundary's
  contents, which the frame certificate builds as a fold through the program: a stretch of host operations applies
  them to the contents before it, a region replaces its output array by what its grid points wrote back and leaves
  every other buffer alone. Read at the result buffer this names the program's result; read at an argument it walks
  back to the launch memory.
-/
import proofs.«152736_j48739288875467_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents `W8` read at it, and the argument arrays end as launched. The launch is the several-region
    launch theorem over the program's segments; the final thread state holds every buffer that outlives a region at
    `W8`, read here at the result and at each argument. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.Spec.lean ====
/-
  The three fused dense stages of a two-layer graph convolution, entry by entry, on the extended reals.

  Every stage takes a block of rows (any number `n` of them) and works row by row, so the same formula reads a
  10000-row block inside a grid point and the whole 100000-row array after the grid has run. With `D` the column of
  per-node scales (the inverse square roots of the degrees):

  * `k0`: project the input features, add the bias, clamp at zero, multiply by the first layer's weights, and scale
    row `p` by `D p`;
  * `k1`: scale the aggregated messages of row `p` by `D p`, add the bias, clamp at zero, multiply by the next
    layer's weights, and scale row `p` by `D p` again;
  * `k2`: scale the aggregated messages of row `p` by `D p`, add the bias, clamp at zero, and apply the final
    linear map with its bias.
-/
import Idealize.ShloMosaic.Lib.ValueIdx
import Idealize.ShloMosaic.PureOps.Ideal

noncomputable section

open scoped BigOperators

namespace Cert.Gcn

open Idealize.ShloMosaic Idealize.ShloMosaic.ValueIdx

/-- An `n × k` array of extended reals. -/
abbrev Mat (n k : ℕ) := (⟨2, ![n, k]⟩ : Shape).Idx → EReal

/-- Input projection, bias, clamp at zero, first-layer weights, then row `p` scaled by `D p`. -/
def k0 {n : ℕ} (X : Mat n 32) (Win : Mat 32 64) (Bin : Mat 1 64) (W1 : Mat 64 64) (D : Mat n 1)
    (p : Fin n) (c : Fin 64) : EReal :=
  (∑ k : Fin 64, max ((∑ q : Fin 32, X (ix2 p q) * Win (ix2 q k)) + Bin (ix2 (0 : Fin 1) k)) 0 * W1 (ix2 k c))
    * D (ix2 p (0 : Fin 1))

/-- Aggregated messages scaled by `D p`, bias, clamp at zero, next-layer weights, then row `p` scaled by `D p`. -/
def k1 {n : ℕ} (S : Mat n 64) (D : Mat n 1) (B : Mat 1 64) (W : Mat 64 64) (p : Fin n) (c : Fin 64) : EReal :=
  (∑ k : Fin 64, max (D (ix2 p (0 : Fin 1)) * S (ix2 p k) + B (ix2 (0 : Fin 1) k)) 0 * W (ix2 k c))
    * D (ix2 p (0 : Fin 1))

/-- Aggregated messages scaled by `D p`, bias, clamp at zero, then the final linear map and its bias. -/
def k2 {n : ℕ} (S : Mat n 64) (D : Mat n 1) (B : Mat 1 64) (W : Mat 64 16) (Bf : Mat 1 16)
    (p : Fin n) (c : Fin 16) : EReal :=
  (∑ k : Fin 64, max (D (ix2 p (0 : Fin 1)) * S (ix2 p k) + B (ix2 (0 : Fin 1) k)) 0 * W (ix2 k c))
    + Bf (ix2 (0 : Fin 1) c)

/-- The three stages as whole arrays: entry `i` is the stage at row `i 0`, column `i 1`. -/
def K0 {n : ℕ} (X : Mat n 32) (Win : Mat 32 64) (Bin : Mat 1 64) (W1 : Mat 64 64) (D : Mat n 1) : Mat n 64 :=
  fun i => k0 X Win Bin W1 D (i 0) (i 1)
def K1 {n : ℕ} (S : Mat n 64) (D : Mat n 1) (B : Mat 1 64) (W : Mat 64 64) : Mat n 64 :=
  fun i => k1 S D B W (i 0) (i 1)
def K2 {n : ℕ} (S : Mat n 64) (D : Mat n 1) (B : Mat 1 64) (W : Mat 64 16) (Bf : Mat 1 16) : Mat n 16 :=
  fun i => k2 S D B W Bf (i 0) (i 1)

end Cert.Gcn

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.Body0.lean ====
/-
  The first dense stage on one block of 10000 rows, on the extended reals.

  The body reads a block `X` of 10000 feature rows, the input projection `Win` (32 × 64) with its bias row `Bin`,
  the first layer's weights `W1` (64 × 64) and the block `D` of per-row scales, and leaves in its output block

      out (p, c) = (∑ k, max ((∑ q, X (p, q) · Win (q, k)) + Bin (0, k)) 0 · W1 (k, c)) · D (p, 0).

  On the extended reals the narrowing conversions around the two products are the identity, so the stored block is
  exactly this function of the five blocks read: every row of the result depends on the same row of `X` and of `D`
  only, which is what lets the blocks be put side by side later.
-/
import proofs.«152736_j48739288875467_2_alg».proof.Proof.Gen.KernelIdeal.Frame
import proofs.«152736_j48739288875467_2_alg».proof.Proof.Spec
import proofs.«152736_j48739288875467_2_alg».proof.Proof.LibRows

noncomputable section

open scoped BigOperators

namespace Cert.KernelIdeal.RegionValue

open Idealize.ShloMosaic Idealize.ShloMosaic.ValueIdx
open Cert.KernelIdeal

namespace Body0

/-- The offsets of a whole-block access are zero on both axes. -/
theorem zero_offsets : (![0, 0] : Fin 2 → Nat) = fun _ => 0 := funext fun a => by fin_cases a <;> rfl

/-- The input projection contracts the 32 feature columns against the rows of `Win`: the plain product of a
    10000 × 32 by a 32 × 64 matrix. -/
theorem dotIn_plain : dot_S10000x32_S32x64_S10000x64_1_0_0_1_n_n = DotDims.plain 10000 32 64 := rfl

/-- The layer product contracts the 64 hidden columns against the rows of `W1`: the plain product of a
    10000 × 64 by a 64 × 64 matrix. -/
theorem dotHid_plain : dot_S10000x64_S64x64_S10000x64_1_0_0_1_n_n = DotDims.plain 10000 64 64 := rfl

/-- The stored value at row `p`, column `c`. Outermost first: the per-row scale `D (p, 0)` multiplies the layer
    product, which is a sum over the hidden column `k`; the hidden entry `(p, k)` is the projection of row `p` on
    column `k` plus the bias at `k`, clamped at zero (the zero the clamp compares with is the float word of all
    zero bits, which denotes the real number 0). -/
theorem pay0_apply (v0 : Vec Ideal S10000x32 .f32) (v2 : Vec Ideal S32x64 .f32) (v5 : Vec Ideal S1x64 .f32)
    (v12 : Vec Ideal S64x64 .f32) (v15 : Vec Ideal S10000x1 .f32) (p : Fin 10000) (c : Fin 64) :
    Gen.k0_pay1 (F := Ideal) v0 v2 v5 v12 v15 (ix2 p c) = Cert.Gcn.k0 v0 v2 v5 v12 v15 p c := by
  unfold Gen.k0_pay1 Cert.Gcn.k0
  -- the scale, the layer product as a sum over `k`, the column of scales read at row `p`
  rw [truncf_apply, mulf_apply, dotHid_plain, Cert.Lib.Rows.matmul_plain_zero_apply,
    Cert.Lib.Rows.broadcastTo_a1_ab_apply, shapeCast_self, shapeCast_self]
  refine congrArg (· * v15 (ix2 p (0 : Fin 1))) (Finset.sum_congr rfl fun k _ => ?_)
  -- the hidden entry `(p, k)`: projection, bias row read at column `k`, clamp
  rw [truncf_apply, truncf_apply, maximumf_apply, addf_apply, broadcast_apply, dotIn_plain,
    Cert.Lib.Rows.matmul_plain_zero_apply, broadcastTo_1b_ab_apply]
  show max ((∑ q : Fin 32, v0 (ix2 p q) * v2 (ix2 q k)) + v5 (ix2 (0 : Fin 1) k)) (Ideal.ofBits .f32 0x00000000#32)
      * v12 (ix2 k c) = _
  rw [Ideal.ofBits_zero_f32]

end Body0

/-- WHAT THE BODY LEAVES in its output block, from the five blocks it reads: the first stage `K0` on 10000 rows.
    The body's loads read each block whole and its one store writes the whole output block, so the block is the
    stored value, entry by entry. -/
theorem body0 (x0 : Vec Ideal S10000x32 .f32) (x1 : Vec Ideal S32x64 .f32) (x2 : Vec Ideal S1x64 .f32)
    (x3 : Vec Ideal S64x64 .f32) (x4 : Vec Ideal S10000x1 .f32) :
    Gen.out0_5 (F := Ideal) x0 x1 x2 x3 x4 = Cert.Gcn.K0 x0 x1 x2 x3 x4 := by
  unfold Gen.out0_5
  rw [View.canon_unit_zero Body0.zero_offsets]
  simp only [View.ld_unit_zero (S := S10000x32) Body0.zero_offsets, View.ld_unit_zero (S := S32x64) Body0.zero_offsets,
    View.ld_unit_zero (S := S1x64) Body0.zero_offsets, View.ld_unit_zero (S := S64x64) Body0.zero_offsets,
    View.ld_unit_zero (S := S10000x1) Body0.zero_offsets]
  funext j
  obtain ⟨p, c, rfl⟩ : ∃ (p : Fin 10000) (c : Fin 64), j = ix2 p c := ⟨j 0, j 1, eq_ix2 j⟩
  exact Body0.pay0_apply x0 x1 x2 x3 x4 p c

end Cert.KernelIdeal.RegionValue

end
-- ==== Proof.Array0.lean ====
/-
  The first dense stage on the whole node arrays: what the ten grid points leave in the output array.

  The grid has ten points. At point `t` the pipeline hands the body rows `10000·t … 10000·t + 9999` of the feature
  array and of the column of per-node scales, and the projection matrix, its bias row and the layer's weights whole;
  the body's output block is written back to rows `10000·t … 10000·t + 9999` of the output array. Since row `p` of the
  stage's result is a function of row `p` of the features and of the scales only, block `t` of the stage on the
  blocks is block `t` of the stage on the arrays; the ten blocks tile the 100000 rows, so the output array ends
  holding the stage `K0` of the five arrays as the region finds them.
-/
import proofs.«152736_j48739288875467_2_alg».proof.Proof.Gen.KernelIdeal.Frame
import proofs.«152736_j48739288875467_2_alg».proof.Proof.Spec
import proofs.«152736_j48739288875467_2_alg».proof.Proof.Body0
import Idealize.ShloMosaic.Lib.Pipeline.Value

noncomputable section

open scoped BigOperators

namespace Cert.KernelIdeal.RegionValue

open Idealize.ShloMosaic Idealize.ShloMosaic.ValueIdx
open Idealize.ShloMosaic.TcCoe Idealize.SL.Sem
open Idealize.ShloMosaic.Pipeline (Dat)
open Cert.KernelIdeal Cert.KernelIdeal.Gen

namespace Array0

/-- The block index of every window at point `t`: the features (window 0), the scales (window 4) and the output
    (window 5) are at block `t` of the rows and block 0 of the columns; the projection, the bias row and the weights
    (windows 1, 2, 3) stay at block (0, 0). Decided over the ten points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of the feature block at point `t` is row `10000·t + p` of the feature array. -/
theorem rows_X (c : Dev nD) (t : Fin cfg0.N) (p : Fin 10000) (q : Fin 32) (r : Fin 100000)
    (hr : r.val = 10000 * t.val + p.val) :
    (iblk0 V c 0 t : Vec Ideal S10000x32 .f32) (ix2 p q)
      = (V c (Pipeline.arrRef spec0 0) : S100000x32.Idx → EReal) (ix2 r q) := by
  obtain ⟨e0, e1, -⟩ := idx_facts t
  unfold iblk0
  rw [View.read_apply]
  show (V c (Pipeline.arrRef spec0 0) : S100000x32.Idx → EReal) (((cfg0.win 0).blk t).view.emb (ix2 p q)) = _
  refine congrArg (V c (Pipeline.arrRef spec0 0) : S100000x32.Idx → EReal) ?_
  funext a; apply Fin.ext
  match a with
  | ⟨0, _⟩ => show win0_0.index t (0 : Fin 2) * 10000 + 1 * p.val = r.val; omega
  | ⟨1, _⟩ => show win0_0.index t (1 : Fin 2) * 32 + 1 * q.val = q.val; omega

/-- The projection matrix's block is the matrix, at every point. -/
theorem whole_Win (c : Dev nD) (t : Fin cfg0.N) :
    (iblk0 V c 1 t : Vec Ideal S32x64 .f32) = (V c (Pipeline.arrRef spec0 1) : S32x64.Idx → EReal) := by
  obtain ⟨-, -, e0, e1, -⟩ := idx_facts t
  funext y
  unfold iblk0
  rw [View.read_apply]
  show (V c (Pipeline.arrRef spec0 1) : S32x64.Idx → EReal) (((cfg0.win 1).blk t).view.emb y) = _
  refine congrArg (V c (Pipeline.arrRef spec0 1) : S32x64.Idx → EReal) ?_
  funext a; apply Fin.ext
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The bias row's block is the row, at every point. -/
theorem whole_Bin (c : Dev nD) (t : Fin cfg0.N) :
    (iblk0 V c 2 t : Vec Ideal S1x64 .f32) = (V c (Pipeline.arrRef spec0 2) : S1x64.Idx → EReal) := by
  obtain ⟨-, -, -, -, e0, e1, -⟩ := idx_facts t
  funext y
  unfold iblk0
  rw [View.read_apply]
  show (V c (Pipeline.arrRef spec0 2) : S1x64.Idx → EReal) (((cfg0.win 2).blk t).view.emb y) = _
  refine congrArg (V c (Pipeline.arrRef spec0 2) : S1x64.Idx → EReal) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The layer weights' block is the weight matrix, at every point. -/
theorem whole_W1 (c : Dev nD) (t : Fin cfg0.N) :
    (iblk0 V c 3 t : Vec Ideal S64x64 .f32) = (V c (Pipeline.arrRef spec0 3) : S64x64.Idx → EReal) := by
  obtain ⟨-, -, -, -, -, -, e0, e1, -⟩ := idx_facts t
  funext y
  unfold iblk0
  rw [View.read_apply]
  show (V c (Pipeline.arrRef spec0 3) : S64x64.Idx → EReal) (((cfg0.win 3).blk t).view.emb y) = _
  refine congrArg (V c (Pipeline.arrRef spec0 3) : S64x64.Idx → EReal) ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Row `p` of the block of scales at point `t` is row `10000·t + p` of the column of scales. -/
theorem rows_D (c : Dev nD) (t : Fin cfg0.N) (p : Fin 10000) (r : Fin 100000)
    (hr : r.val = 10000 * t.val + p.val) :
    (iblk0 V c 4 t : Vec Ideal S10000x1 .f32) (ix2 p (0 : Fin 1))
      = (V c (Pipeline.arrRef spec0 4) : S100000x1.Idx → EReal) (ix2 r (0 : Fin 1)) := by
  obtain ⟨-, -, -, -, -, -, -, -, e0, e1, -⟩ := idx_facts t
  unfold iblk0
  rw [View.read_apply]
  show (V c (Pipeline.arrRef spec0 4) : S100000x1.Idx → EReal) (((cfg0.win 4).blk t).view.emb (ix2 p (0 : Fin 1))) = _
  refine congrArg (V c (Pipeline.arrRef spec0 4) : S100000x1.Idx → EReal) ?_
  funext a; apply Fin.ext
  match a with
  | ⟨0, _⟩ => show win0_4.index t (0 : Fin 2) * 10000 + 1 * p.val = r.val; omega
  | ⟨1, _⟩ => show win0_4.index t (1 : Fin 2) * 1 + 1 * 0 = 0; omega

/-- The stage at a row reads that row of the features and of the scales and nothing else of them: two feature arrays
    and two columns of scales that agree on a pair of rows give the same value there. -/
theorem k0_rows {n n' : ℕ} (X : Cert.Gcn.Mat n 32) (X' : Cert.Gcn.Mat n' 32) (Win : Cert.Gcn.Mat 32 64)
    (Bin : Cert.Gcn.Mat 1 64) (W1 : Cert.Gcn.Mat 64 64) (D : Cert.Gcn.Mat n 1) (D' : Cert.Gcn.Mat n' 1)
    (p : Fin n) (r : Fin n') (c : Fin 64)
    (hX : ∀ q : Fin 32, X (ix2 p q) = X' (ix2 r q)) (hD : D (ix2 p (0 : Fin 1)) = D' (ix2 r (0 : Fin 1))) :
    Cert.Gcn.k0 X Win Bin W1 D p c = Cert.Gcn.k0 X' Win Bin W1 D' r c := by
  unfold Cert.Gcn.k0
  rw [hD]
  simp only [hX]

/-- WHAT POINT `t` WRITES BACK is block `t` of the stage on the arrays: entry `(p, k)` of the body's output block is
    the stage on the blocks at row `p`, which is the stage on the arrays at row `10000·t + p`, the row of the output
    array that entry `(p, k)` of block `t` is written to. -/
theorem flushed0 (c : Dev nD) (t : Fin cfg0.N) :
    (dat0 (F := Ideal) V c).flushed 5 t = ((cfg0.win 5).blk t).view.read (Elt Ideal)
      (Cert.Gcn.K0 (V c (Pipeline.arrRef spec0 0) : S100000x32.Idx → EReal)
        (V c (Pipeline.arrRef spec0 1) : S32x64.Idx → EReal) (V c (Pipeline.arrRef spec0 2) : S1x64.Idx → EReal)
        (V c (Pipeline.arrRef spec0 3) : S64x64.Idx → EReal) (V c (Pipeline.arrRef spec0 4) : S100000x1.Idx → EReal)) := by
  show (cfg0.win 5).cut (grid0.coords t) ((dat0 V c).after 5 t) = _
  rw [after0_5, body0, whole_Win V c t, whole_Bin V c t, whole_W1 V c t]
  have hN : cfg0.N = 10 := N_0
  have ht : t.val < 10 := by have := t.isLt; omega
  obtain ⟨-, -, -, -, -, -, -, -, -, -, e0, e1⟩ := idx_facts t
  funext j
  obtain ⟨p, k, rfl⟩ : ∃ (p : Fin 10000) (k : Fin 64), j = ix2 p k := ⟨j 0, j 1, eq_ix2 j⟩
  have hemb : ((cfg0.win 5).blk t).view.emb (ix2 p k)
      = (ix2 (⟨10000 * t.val + p.val, by omega⟩ : Fin 100000) k : S100000x64.Idx) := by
    funext a; apply Fin.ext
    match a with
    | ⟨0, _⟩ => show win0_5.index t (0 : Fin 2) * 10000 + 1 * p.val = 10000 * t.val + p.val; omega
    | ⟨1, _⟩ => show win0_5.index t (1 : Fin 2) * 64 + 1 * k.val = k.val; omega
  rw [View.read_apply, hemb]
  exact k0_rows (iblk0 V c 0 t : Vec Ideal S10000x32 .f32) (V c (Pipeline.arrRef spec0 0) : S100000x32.Idx → EReal)
    (V c (Pipeline.arrRef spec0 1) : S32x64.Idx → EReal) (V c (Pipeline.arrRef spec0 2) : S1x64.Idx → EReal)
    (V c (Pipeline.arrRef spec0 3) : S64x64.Idx → EReal)
    (iblk0 V c 4 t : Vec Ideal S10000x1 .f32) (V c (Pipeline.arrRef spec0 4) : S100000x1.Idx → EReal)
    p ⟨10000 * t.val + p.val, by omega⟩ k
    (fun q => rows_X V c t p q _ rfl) (rows_D V c t p _ rfl)

/-- Row `i 0`, column `i 1` of the output array lies in point `t`'s block exactly when, on each axis, the coordinate
    is at least the block's first and below its last plus one. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v17).slice (win0_5.rect t)).set ↔ _
  rw [View.set_slice_whole, Rect.mem_set_unit]
  exact Iff.rfl

/-- The ten blocks tile the 100000 rows: row `r` is in the block of point `r / 10000` (whose rows are
    `10000 · (r / 10000) … 10000 · (r / 10000) + 9999`), and every point writes its block back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

end Array0

/-- THE OUTPUT ARRAY after the ten points: the first stage `K0` of the feature array, the projection, its bias row, the
    layer's weights and the column of scales, each as the region finds it, on all 100000 rows. -/
theorem final0 (V : (c : Dev nD) → (b : Ref sig .tc) → Buf (Elt Ideal) ((c : Thread nD τ).loc b)) (c : Dev nD) :
    (Gen.dat0 (F := Ideal) V c).arrAt 5 cfg0.N
      = Cert.Gcn.K0 (V c (Pipeline.arrRef spec0 0) : S100000x32.Idx → EReal)
        (V c (Pipeline.arrRef spec0 1) : S32x64.Idx → EReal) (V c (Pipeline.arrRef spec0 2) : S1x64.Idx → EReal)
        (V c (Pipeline.arrRef spec0 3) : S64x64.Idx → EReal) (V c (Pipeline.arrRef spec0 4) : S100000x1.Idx → EReal) :=
  (Gen.dat0 (F := Ideal) V c).arrAt_eq_of_cover 5 _ (fun t _ => Array0.flushed0 V c t) Array0.cover

end Cert.KernelIdeal.RegionValue

end
-- ==== Proof.Body1.lean ====
/-
  The second dense stage on one block of 10000 rows, on the extended reals.

  The body reads a block `S` of 10000 rows of aggregated messages (64 columns), the block `D` of per-row scales, the
  bias row `B` and the next layer's weights `W` (64 × 64), and leaves in its output block

      out (p, c) = (∑ k, max (D (p, 0) · S (p, k) + B (0, k)) 0 · W (k, c)) · D (p, 0).

  The block of scales is loaded twice, once for the scaling before the bias and once for the scaling after the
  product; both loads read the same block. On the extended reals the narrowing conversions around the product are
  the identity, so the stored block is exactly this function of the four blocks read.
-/
import proofs.«152736_j48739288875467_2_alg».proof.Proof.Gen.KernelIdeal.Frame
import proofs.«152736_j48739288875467_2_alg».proof.Proof.Spec
import proofs.«152736_j48739288875467_2_alg».proof.Proof.LibRows

noncomputable section

open scoped BigOperators

namespace Cert.KernelIdeal.RegionValue

open Idealize.ShloMosaic Idealize.ShloMosaic.ValueIdx
open Cert.KernelIdeal

namespace Body1

/-- The offsets of a whole-block access are zero on both axes. -/
theorem zero_offsets : (![0, 0] : Fin 2 → Nat) = fun _ => 0 := funext fun a => by fin_cases a <;> rfl

/-- The layer product contracts the 64 hidden columns against the rows of `W`: the plain product of a
    10000 × 64 by a 64 × 64 matrix. -/
theorem dotHid_plain : dot_S10000x64_S64x64_S10000x64_1_0_0_1_n_n = DotDims.plain 10000 64 64 := rfl

/-- The stored value at row `p`, column `c`, with the two loads of the scales kept apart (`v0` scales the messages,
    `v16` the product). Outermost first: `v16 (p, 0)` multiplies the layer product, a sum over the hidden column `k`;
    the hidden entry `(p, k)` is the message entry scaled by `v0 (p, 0)`, plus the bias at `k`, clamped at zero. -/
theorem pay1_apply (v0 : Vec Ideal S10000x1 .f32) (v2 : Vec Ideal S10000x64 .f32) (v6 : Vec Ideal S1x64 .f32)
    (v13 : Vec Ideal S64x64 .f32) (v16 : Vec Ideal S10000x1 .f32) (p : Fin 10000) (c : Fin 64) :
    Gen.k1_pay1 (F := Ideal) v0 v2 v6 v13 v16 (ix2 p c)
      = (∑ k : Fin 64, max (v0 (ix2 p (0 : Fin 1)) * v2 (ix2 p k) + v6 (ix2 (0 : Fin 1) k)) 0 * v13 (ix2 k c))
        * v16 (ix2 p (0 : Fin 1)) := by
  unfold Gen.k1_pay1
  -- every reshape in the body is from a shape to itself
  simp only [shapeCast_self]
  -- the outer scale, the layer product as a sum over `k`, the column of scales read at row `p`
  rw [truncf_apply, mulf_apply, dotHid_plain, Cert.Lib.Rows.matmul_plain_zero_apply,
    Cert.Lib.Rows.broadcastTo_a1_ab_apply]
  refine congrArg (· * v16 (ix2 p (0 : Fin 1))) (Finset.sum_congr rfl fun k _ => ?_)
  -- the hidden entry `(p, k)`: scaled message, bias row read at column `k`, clamp
  rw [truncf_apply, truncf_apply, maximumf_apply, addf_apply, broadcast_apply, mulf_apply,
    Cert.Lib.Rows.broadcastTo_a1_ab_apply, broadcastTo_1b_ab_apply]
  show max (v0 (ix2 p (0 : Fin 1)) * v2 (ix2 p k) + v6 (ix2 (0 : Fin 1) k)) (Ideal.ofBits .f32 0x00000000#32)
      * v13 (ix2 k c) = _
  rw [Ideal.ofBits_zero_f32]

end Body1

/-- WHAT THE BODY LEAVES in its output block, from the four blocks it reads: the second stage `K1` on 10000 rows.
    Every load reads its block whole (the scales twice) and the one store writes the whole output block. -/
theorem body1 (x0 : Vec Ideal S10000x64 .f32) (x1 : Vec Ideal S10000x1 .f32) (x2 : Vec Ideal S1x64 .f32)
    (x3 : Vec Ideal S64x64 .f32) :
    Gen.out1_4 (F := Ideal) x0 x1 x2 x3 = Cert.Gcn.K1 x0 x1 x2 x3 := by
  unfold Gen.out1_4
  rw [View.canon_unit_zero Body1.zero_offsets]
  simp only [View.ld_unit_zero (S := S10000x64) Body1.zero_offsets, View.ld_unit_zero (S := S10000x1) Body1.zero_offsets,
    View.ld_unit_zero (S := S1x64) Body1.zero_offsets, View.ld_unit_zero (S := S64x64) Body1.zero_offsets]
  funext j
  obtain ⟨p, c, rfl⟩ : ∃ (p : Fin 10000) (c : Fin 64), j = ix2 p c := ⟨j 0, j 1, eq_ix2 j⟩
  exact Body1.pay1_apply x1 x0 x2 x3 x1 p c

end Cert.KernelIdeal.RegionValue

end
-- ==== Proof.Array1.lean ====
/-
  The second dense stage on the whole node arrays: what the ten grid points leave in the output array.

  At point `t` the pipeline hands the body rows `10000·t … 10000·t + 9999` of the array of aggregated messages and of
  the column of per-node scales, and the bias row and the layer's weights whole; the body's output block is written
  back to rows `10000·t … 10000·t + 9999` of the output array. Row `p` of the stage's result is a function of row `p`
  of the messages and of the scales only, so block `t` of the stage on the blocks is block `t` of the stage on the
  arrays; the ten blocks tile the 100000 rows, so the output array ends holding the stage `K1` of the four arrays as
  the region finds them.
-/
import proofs.«152736_j48739288875467_2_alg».proof.Proof.Gen.KernelIdeal.Frame
import proofs.«152736_j48739288875467_2_alg».proof.Proof.Spec
import proofs.«152736_j48739288875467_2_alg».proof.Proof.Body1
import Idealize.ShloMosaic.Lib.Pipeline.Value

noncomputable section

open scoped BigOperators

namespace Cert.KernelIdeal.RegionValue

open Idealize.ShloMosaic Idealize.ShloMosaic.ValueIdx
open Idealize.ShloMosaic.TcCoe Idealize.SL.Sem
open Idealize.ShloMosaic.Pipeline (Dat)
open Cert.KernelIdeal Cert.KernelIdeal.Gen

namespace Array1

/-- The block index of every window at point `t`: the messages (window 0), the scales (window 1) and the output
    (window 4) are at block `t` of the rows and block 0 of the columns; the bias row and the weights (windows 2, 3)
    stay at block (0, 0). Decided over the ten points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of the block of messages at point `t` is row `10000·t + p` of the array of messages. -/
theorem rows_S (c : Dev nD) (t : Fin cfg1.N) (p : Fin 10000) (q : Fin 64) (r : Fin 100000)
    (hr : r.val = 10000 * t.val + p.val) :
    (iblk1 V c 0 t : Vec Ideal S10000x64 .f32) (ix2 p q)
      = (V c (Pipeline.arrRef spec1 0) : S100000x64.Idx → EReal) (ix2 r q) := by
  obtain ⟨e0, e1, -⟩ := idx_facts t
  unfold iblk1
  rw [View.read_apply]
  show (V c (Pipeline.arrRef spec1 0) : S100000x64.Idx → EReal) (((cfg1.win 0).blk t).view.emb (ix2 p q)) = _
  refine congrArg (V c (Pipeline.arrRef spec1 0) : S100000x64.Idx → EReal) ?_
  funext a; apply Fin.ext
  match a with
  | ⟨0, _⟩ => show win1_0.index t (0 : Fin 2) * 10000 + 1 * p.val = r.val; omega
  | ⟨1, _⟩ => show win1_0.index t (1 : Fin 2) * 64 + 1 * q.val = q.val; omega

/-- Row `p` of the block of scales at point `t` is row `10000·t + p` of the column of scales. -/
theorem rows_D (c : Dev nD) (t : Fin cfg1.N) (p : Fin 10000) (r : Fin 100000)
    (hr : r.val = 10000 * t.val + p.val) :
    (iblk1 V c 1 t : Vec Ideal S10000x1 .f32) (ix2 p (0 : Fin 1))
      = (V c (Pipeline.arrRef spec1 1) : S100000x1.Idx → EReal) (ix2 r (0 : Fin 1)) := by
  obtain ⟨-, -, e0, e1, -⟩ := idx_facts t
  unfold iblk1
  rw [View.read_apply]
  show (V c (Pipeline.arrRef spec1 1) : S100000x1.Idx → EReal) (((cfg1.win 1).blk t).view.emb (ix2 p (0 : Fin 1))) = _
  refine congrArg (V c (Pipeline.arrRef spec1 1) : S100000x1.Idx → EReal) ?_
  funext a; apply Fin.ext
  match a with
  | ⟨0, _⟩ => show win1_1.index t (0 : Fin 2) * 10000 + 1 * p.val = r.val; omega
  | ⟨1, _⟩ => show win1_1.index t (1 : Fin 2) * 1 + 1 * 0 = 0; omega

/-- The bias row's block is the row, at every point. -/
theorem whole_B (c : Dev nD) (t : Fin cfg1.N) :
    (iblk1 V c 2 t : Vec Ideal S1x64 .f32) = (V c (Pipeline.arrRef spec1 2) : S1x64.Idx → EReal) := by
  obtain ⟨-, -, -, -, e0, e1, -⟩ := idx_facts t
  funext y
  unfold iblk1
  rw [View.read_apply]
  show (V c (Pipeline.arrRef spec1 2) : S1x64.Idx → EReal) (((cfg1.win 2).blk t).view.emb y) = _
  refine congrArg (V c (Pipeline.arrRef spec1 2) : S1x64.Idx → EReal) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The layer weights' block is the weight matrix, at every point. -/
theorem whole_W (c : Dev nD) (t : Fin cfg1.N) :
    (iblk1 V c 3 t : Vec Ideal S64x64 .f32) = (V c (Pipeline.arrRef spec1 3) : S64x64.Idx → EReal) := by
  obtain ⟨-, -, -, -, -, -, e0, e1, -⟩ := idx_facts t
  funext y
  unfold iblk1
  rw [View.read_apply]
  show (V c (Pipeline.arrRef spec1 3) : S64x64.Idx → EReal) (((cfg1.win 3).blk t).view.emb y) = _
  refine congrArg (V c (Pipeline.arrRef spec1 3) : S64x64.Idx → EReal) ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The stage at a row reads that row of the messages and of the scales and nothing else of them: two arrays of
    messages and two columns of scales that agree on a pair of rows give the same value there. -/
theorem k1_rows {n n' : ℕ} (S : Cert.Gcn.Mat n 64) (S' : Cert.Gcn.Mat n' 64) (D : Cert.Gcn.Mat n 1) (D' : Cert.Gcn.Mat n' 1)
    (B : Cert.Gcn.Mat 1 64) (W : Cert.Gcn.Mat 64 64) (p : Fin n) (r : Fin n') (c : Fin 64)
    (hS : ∀ q : Fin 64, S (ix2 p q) = S' (ix2 r q)) (hD : D (ix2 p (0 : Fin 1)) = D' (ix2 r (0 : Fin 1))) :
    Cert.Gcn.k1 S D B W p c = Cert.Gcn.k1 S' D' B W r c := by
  unfold Cert.Gcn.k1
  rw [hD]
  simp only [hS]

/-- WHAT POINT `t` WRITES BACK is block `t` of the stage on the arrays: entry `(p, k)` of the body's output block is
    the stage on the blocks at row `p`, which is the stage on the arrays at row `10000·t + p`, the row of the output
    array that entry `(p, k)` of block `t` is written to. -/
theorem flushed1 (c : Dev nD) (t : Fin cfg1.N) :
    (dat1 (F := Ideal) V c).flushed 4 t = ((cfg1.win 4).blk t).view.read (Elt Ideal)
      (Cert.Gcn.K1 (V c (Pipeline.arrRef spec1 0) : S100000x64.Idx → EReal)
        (V c (Pipeline.arrRef spec1 1) : S100000x1.Idx → EReal) (V c (Pipeline.arrRef spec1 2) : S1x64.Idx → EReal)
        (V c (Pipeline.arrRef spec1 3) : S64x64.Idx → EReal)) := by
  show (cfg1.win 4).cut (grid1.coords t) ((dat1 V c).after 4 t) = _
  rw [after1_4, body1, whole_B V c t, whole_W V c t]
  have hN : cfg1.N = 10 := N_1
  have ht : t.val < 10 := by have := t.isLt; omega
  obtain ⟨-, -, -, -, -, -, -, -, e0, e1⟩ := idx_facts t
  funext j
  obtain ⟨p, k, rfl⟩ : ∃ (p : Fin 10000) (k : Fin 64), j = ix2 p k := ⟨j 0, j 1, eq_ix2 j⟩
  have hemb : ((cfg1.win 4).blk t).view.emb (ix2 p k)
      = (ix2 (⟨10000 * t.val + p.val, by omega⟩ : Fin 100000) k : S100000x64.Idx) := by
    funext a; apply Fin.ext
    match a with
    | ⟨0, _⟩ => show win1_4.index t (0 : Fin 2) * 10000 + 1 * p.val = 10000 * t.val + p.val; omega
    | ⟨1, _⟩ => show win1_4.index t (1 : Fin 2) * 64 + 1 * k.val = k.val; omega
  rw [View.read_apply, hemb]
  exact k1_rows (iblk1 V c 0 t : Vec Ideal S10000x64 .f32) (V c (Pipeline.arrRef spec1 0) : S100000x64.Idx → EReal)
    (iblk1 V c 1 t : Vec Ideal S10000x1 .f32) (V c (Pipeline.arrRef spec1 1) : S100000x1.Idx → EReal)
    (V c (Pipeline.arrRef spec1 2) : S1x64.Idx → EReal) (V c (Pipeline.arrRef spec1 3) : S64x64.Idx → EReal)
    p ⟨10000 * t.val + p.val, by omega⟩ k
    (fun q => rows_S V c t p q _ rfl) (rows_D V c t p _ rfl)

/-- Row `i 0`, column `i 1` of the output array lies in point `t`'s block exactly when, on each axis, the coordinate
    is at least the block's first and below its last plus one. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v30).slice (win1_4.rect t)).set ↔ _
  rw [View.set_slice_whole, Rect.mem_set_unit]
  exact Iff.rfl

/-- The ten blocks tile the 100000 rows: row `r` is in the block of point `r / 10000` (whose rows are
    `10000 · (r / 10000) … 10000 · (r / 10000) + 9999`), and every point writes its block back. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

end Array1

/-- THE OUTPUT ARRAY after the ten points: the second stage `K1` of the array of messages, the column of scales, the
    bias row and the layer's weights, each as the region finds it, on all 100000 rows. -/
theorem final1 (V : (c : Dev nD) → (b : Ref sig .tc) → Buf (Elt Ideal) ((c : Thread nD τ).loc b)) (c : Dev nD) :
    (Gen.dat1 (F := Ideal) V c).arrAt 4 cfg1.N
      = Cert.Gcn.K1 (V c (Pipeline.arrRef spec1 0) : S100000x64.Idx → EReal)
        (V c (Pipeline.arrRef spec1 1) : S100000x1.Idx → EReal) (V c (Pipeline.arrRef spec1 2) : S1x64.Idx → EReal)
        (V c (Pipeline.arrRef spec1 3) : S64x64.Idx → EReal) :=
  (Gen.dat1 (F := Ideal) V c).arrAt_eq_of_cover 4 _ (fun t _ => Array1.flushed1 V c t) Array1.cover

end Cert.KernelIdeal.RegionValue

end
-- ==== Proof.Body2.lean ====
/-
  The last dense stage on one block of 10000 rows, on the extended reals.

  The body reads a block `S` of 10000 rows of aggregated messages (64 columns), the block `D` of per-row scales, the
  bias row `B`, the final linear map `W` (64 × 16) and its bias row `Bf`, and leaves in its output block

      out (p, c) = (∑ k, max (D (p, 0) · S (p, k) + B (0, k)) 0 · W (k, c)) + Bf (0, c).

  The result is stored as computed (no conversion after the last sum); the narrowing conversions in front of the
  product are the identity on the extended reals.
-/
import proofs.«152736_j48739288875467_2_alg».proof.Proof.Gen.KernelIdeal.Frame
import proofs.«152736_j48739288875467_2_alg».proof.Proof.Spec
import proofs.«152736_j48739288875467_2_alg».proof.Proof.LibRows

noncomputable section

open scoped BigOperators

namespace Cert.KernelIdeal.RegionValue

open Idealize.ShloMosaic Idealize.ShloMosaic.ValueIdx
open Cert.KernelIdeal

namespace Body2

/-- The offsets of a whole-block access are zero on both axes. -/
theorem zero_offsets : (![0, 0] : Fin 2 → Nat) = fun _ => 0 := funext fun a => by fin_cases a <;> rfl

/-- The final map contracts the 64 hidden columns against the rows of `W`: the plain product of a 10000 × 64 by
    a 64 × 16 matrix. -/
theorem dotOut_plain : dot_S10000x64_S64x16_S10000x16_1_0_0_1_n_n = DotDims.plain 10000 64 16 := rfl

/-- The stored value at row `p`, column `c`. Outermost first: the final bias at column `c` is added to the product,
    a sum over the hidden column `k`; the hidden entry `(p, k)` is the message entry scaled by `D (p, 0)`, plus the
    bias at `k`, clamped at zero. -/
theorem pay2_apply (v0 : Vec Ideal S10000x1 .f32) (v2 : Vec Ideal S10000x64 .f32) (v6 : Vec Ideal S1x64 .f32)
    (v13 : Vec Ideal S64x16 .f32) (v16 : Vec Ideal S1x16 .f32) (p : Fin 10000) (c : Fin 16) :
    Gen.k2_pay1 (F := Ideal) v0 v2 v6 v13 v16 (ix2 p c) = Cert.Gcn.k2 v2 v0 v6 v13 v16 p c := by
  unfold Gen.k2_pay1 Cert.Gcn.k2
  -- every reshape in the body is from a shape to itself
  simp only [shapeCast_self]
  -- the final bias row read at column `c`, the product as a sum over `k`
  rw [addf_apply, dotOut_plain, Cert.Lib.Rows.matmul_plain_zero_apply, broadcastTo_1b_ab_apply]
  refine congrArg (· + v16 (ix2 (0 : Fin 1) c)) (Finset.sum_congr rfl fun k _ => ?_)
  -- the hidden entry `(p, k)`: scaled message, bias row read at column `k`, clamp
  rw [truncf_apply, truncf_apply, maximumf_apply, addf_apply, broadcast_apply, mulf_apply,
    Cert.Lib.Rows.broadcastTo_a1_ab_apply, broadcastTo_1b_ab_apply]
  show max (v0 (ix2 p (0 : Fin 1)) * v2 (ix2 p k) + v6 (ix2 (0 : Fin 1) k)) (Ideal.ofBits .f32 0x00000000#32)
      * v13 (ix2 k c) = _
  rw [Ideal.ofBits_zero_f32]

end Body2

/-- WHAT THE BODY LEAVES in its output block, from the five blocks it reads: the last stage `K2` on 10000 rows.
    Every load reads its block whole and the one store writes the whole output block. -/
theorem body2 (x0 : Vec Ideal S10000x64 .f32) (x1 : Vec Ideal S10000x1 .f32) (x2 : Vec Ideal S1x64 .f32)
    (x3 : Vec Ideal S64x16 .f32) (x4 : Vec Ideal S1x16 .f32) :
    Gen.out2_5 (F := Ideal) x0 x1 x2 x3 x4 = Cert.Gcn.K2 x0 x1 x2 x3 x4 := by
  unfold Gen.out2_5
  rw [View.canon_unit_zero Body2.zero_offsets]
  simp only [View.ld_unit_zero (S := S10000x64) Body2.zero_offsets, View.ld_unit_zero (S := S10000x1) Body2.zero_offsets,
    View.ld_unit_zero (S := S1x64) Body2.zero_offsets, View.ld_unit_zero (S := S64x16) Body2.zero_offsets,
    View.ld_unit_zero (S := S1x16) Body2.zero_offsets]
  funext j
  obtain ⟨p, c, rfl⟩ : ∃ (p : Fin 10000) (c : Fin 16), j = ix2 p c := ⟨j 0, j 1, eq_ix2 j⟩
  exact Body2.pay2_apply x1 x0 x2 x3 x4 p c

end Cert.KernelIdeal.RegionValue

end
-- ==== Proof.Array2.lean ====
/-
  The last dense stage on the whole node arrays: what the ten grid points leave in the output array.

  At point `t` the pipeline hands the body rows `10000·t … 10000·t + 9999` of the array of aggregated messages and of
  the column of per-node scales, and the bias row, the final linear map and its bias row whole; the body's output
  block (16 columns) is written back to rows `10000·t … 10000·t + 9999` of the output array. Row `p` of the stage's
  result is a function of row `p` of the messages and of the scales only, so block `t` of the stage on the blocks is
  block `t` of the stage on the arrays; the ten blocks tile the 100000 rows, so the output array ends holding the
  stage `K2` of the five arrays as the region finds them.
-/
import proofs.«152736_j48739288875467_2_alg».proof.Proof.Gen.KernelIdeal.Frame
import proofs.«152736_j48739288875467_2_alg».proof.Proof.Spec
import proofs.«152736_j48739288875467_2_alg».proof.Proof.Body2
import Idealize.ShloMosaic.Lib.Pipeline.Value

noncomputable section

open scoped BigOperators

namespace Cert.KernelIdeal.RegionValue

open Idealize.ShloMosaic Idealize.ShloMosaic.ValueIdx
open Idealize.ShloMosaic.TcCoe Idealize.SL.Sem
open Idealize.ShloMosaic.Pipeline (Dat)
open Cert.KernelIdeal Cert.KernelIdeal.Gen

namespace Array2

/-- The block index of every window at point `t`: the messages (window 0), the scales (window 1) and the output
    (window 5) are at block `t` of the rows and block 0 of the columns; the bias row, the final map and its bias row
    (windows 2, 3, 4) stay at block (0, 0). Decided over the ten points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row `p` of the block of messages at point `t` is row `10000·t + p` of the array of messages. -/
theorem rows_S (c : Dev nD) (t : Fin cfg2.N) (p : Fin 10000) (q : Fin 64) (r : Fin 100000)
    (hr : r.val = 10000 * t.val + p.val) :
    (iblk2 V c 0 t : Vec Ideal S10000x64 .f32) (ix2 p q)
      = (V c (Pipeline.arrRef spec2 0) : S100000x64.Idx → EReal) (ix2 r q) := by
  obtain ⟨e0, e1, -⟩ := idx_facts t
  unfold iblk2
  rw [View.read_apply]
  show (V c (Pipeline.arrRef spec2 0) : S100000x64.Idx → EReal) (((cfg2.win 0).blk t).view.emb (ix2 p q)) = _
  refine congrArg (V c (Pipeline.arrRef spec2 0) : S100000x64.Idx → EReal) ?_
  funext a; apply Fin.ext
  match a with
  | ⟨0, _⟩ => show win2_0.index t (0 : Fin 2) * 10000 + 1 * p.val = r.val; omega
  | ⟨1, _⟩ => show win2_0.index t (1 : Fin 2) * 64 + 1 * q.val = q.val; omega

/-- Row `p` of the block of scales at point `t` is row `10000·t + p` of the column of scales. -/
theorem rows_D (c : Dev nD) (t : Fin cfg2.N) (p : Fin 10000) (r : Fin 100000)
    (hr : r.val = 10000 * t.val + p.val) :
    (iblk2 V c 1 t : Vec Ideal S10000x1 .f32) (ix2 p (0 : Fin 1))
      = (V c (Pipeline.arrRef spec2 1) : S100000x1.Idx → EReal) (ix2 r (0 : Fin 1)) := by
  obtain ⟨-, -, e0, e1, -⟩ := idx_facts t
  unfold iblk2
  rw [View.read_apply]
  show (V c (Pipeline.arrRef spec2 1) : S100000x1.Idx → EReal) (((cfg2.win 1).blk t).view.emb (ix2 p (0 : Fin 1))) = _
  refine congrArg (V c (Pipeline.arrRef spec2 1) : S100000x1.Idx → EReal) ?_
  funext a; apply Fin.ext
  match a with
  | ⟨0, _⟩ => show win2_1.index t (0 : Fin 2) * 10000 + 1 * p.val = r.val; omega
  | ⟨1, _⟩ => show win2_1.index t (1 : Fin 2) * 1 + 1 * 0 = 0; omega

/-- The bias row's block is the row, at every point. -/
theorem whole_B (c : Dev nD) (t : Fin cfg2.N) :
    (iblk2 V c 2 t : Vec Ideal S1x64 .f32) = (V c (Pipeline.arrRef spec2 2) : S1x64.Idx → EReal) := by
  obtain ⟨-, -, -, -, e0, e1, -⟩ := idx_facts t
  funext y
  unfold iblk2
  rw [View.read_apply]
  show (V c (Pipeline.arrRef spec2 2) : S1x64.Idx → EReal) (((cfg2.win 2).blk t).view.emb y) = _
  refine congrArg (V c (Pipeline.arrRef spec2 2) : S1x64.Idx → EReal) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The final map's block is the whole 64 × 16 matrix, at every point. -/
theorem whole_W (c : Dev nD) (t : Fin cfg2.N) :
    (iblk2 V c 3 t : Vec Ideal S64x16 .f32) = (V c (Pipeline.arrRef spec2 3) : S64x16.Idx → EReal) := by
  obtain ⟨-, -, -, -, -, -, e0, e1, -⟩ := idx_facts t
  funext y
  unfold iblk2
  rw [View.read_apply]
  show (V c (Pipeline.arrRef spec2 3) : S64x16.Idx → EReal) (((cfg2.win 3).blk t).view.emb y) = _
  refine congrArg (V c (Pipeline.arrRef spec2 3) : S64x16.Idx → EReal) ?_
  funext a; apply Fin.ext
  match a with
  | ⟨0, _⟩ => show win2_3.index t (0 : Fin 2) * 64 + 1 * (y 0).val = (y 0).val; omega
  | ⟨1, _⟩ => show win2_3.index t (1 : Fin 2) * 16 + 1 * (y 1).val = (y 1).val; omega

/-- The final bias row's block is the row, at every point. -/
theorem whole_Bf (c : Dev nD) (t : Fin cfg2.N) :
    (iblk2 V c 4 t : Vec Ideal S1x16 .f32) = (V c (Pipeline.arrRef spec2 4) : S1x16.Idx → EReal) := by
  obtain ⟨-, -, -, -, -, -, -, -, e0, e1, -⟩ := idx_facts t
  funext y
  unfold iblk2
  rw [View.read_apply]
  show (V c (Pipeline.arrRef spec2 4) : S1x16.Idx → EReal) (((cfg2.win 4).blk t).view.emb y) = _
  refine congrArg (V c (Pipeline.arrRef spec2 4) : S1x16.Idx → EReal) ?_
  funext a; apply Fin.ext
  match a with
  | ⟨0, _⟩ => show win2_4.index t (0 : Fin 2) * 1 + 1 * (y 0).val = (y 0).val; omega
  | ⟨1, _⟩ => show win2_4.index t (1 : Fin 2) * 16 + 1 * (y 1).val = (y 1).val; omega

/-- The stage at a row reads that row of the messages and of the scales and nothing else of them: two arrays of
    messages and two columns of scales that agree on a pair of rows give the same value there. -/
theorem k2_rows {n n' : ℕ} (S : Cert.Gcn.Mat n 64) (S' : Cert.Gcn.Mat n' 64) (D : Cert.Gcn.Mat n 1) (D' : Cert.Gcn.Mat n' 1)
    (B : Cert.Gcn.Mat 1 64) (W : Cert.Gcn.Mat 64 16) (Bf : Cert.Gcn.Mat 1 16) (p : Fin n) (r : Fin n') (c : Fin 16)
    (hS : ∀ q : Fin 64, S (ix2 p q) = S' (ix2 r q)) (hD : D (ix2 p (0 : Fin 1)) = D' (ix2 r (0 : Fin 1))) :
    Cert.Gcn.k2 S D B W Bf p c = Cert.Gcn.k2 S' D' B W Bf r c := by
  unfold Cert.Gcn.k2
  rw [hD]
  simp only [hS]

/-- WHAT POINT `t` WRITES BACK is block `t` of the stage on the arrays: entry `(p, k)` of the body's output block is
    the stage on the blocks at row `p`, which is the stage on the arrays at row `10000·t + p`, the row of the output
    array that entry `(p, k)` of block `t` is written to. -/
theorem flushed2 (c : Dev nD) (t : Fin cfg2.N) :
    (dat2 (F := Ideal) V c).flushed 5 t = ((cfg2.win 5).blk t).view.read (Elt Ideal)
      (Cert.Gcn.K2 (V c (Pipeline.arrRef spec2 0) : S100000x64.Idx → EReal)
        (V c (Pipeline.arrRef spec2 1) : S100000x1.Idx → EReal) (V c (Pipeline.arrRef spec2 2) : S1x64.Idx → EReal)
        (V c (Pipeline.arrRef spec2 3) : S64x16.Idx → EReal) (V c (Pipeline.arrRef spec2 4) : S1x16.Idx → EReal)) := by
  show (cfg2.win 5).cut (grid2.coords t) ((dat2 V c).after 5 t) = _
  rw [after2_5, body2, whole_B V c t, whole_W V c t, whole_Bf V c t]
  have hN : cfg2.N = 10 := N_2
  have ht : t.val < 10 := by have := t.isLt; omega
  obtain ⟨-, -, -, -, -, -, -, -, -, -, e0, e1⟩ := idx_facts t
  funext j
  obtain ⟨p, k, rfl⟩ : ∃ (p : Fin 10000) (k : Fin 16), j = ix2 p k := ⟨j 0, j 1, eq_ix2 j⟩
  have hemb : ((cfg2.win 5).blk t).view.emb (ix2 p k)
      = (ix2 (⟨10000 * t.val + p.val, by omega⟩ : Fin 100000) k : S100000x16.Idx) := by
    funext a; apply Fin.ext
    match a with
    | ⟨0, _⟩ => show win2_5.index t (0 : Fin 2) * 10000 + 1 * p.val = 10000 * t.val + p.val; omega
    | ⟨1, _⟩ => show win2_5.index t (1 : Fin 2) * 16 + 1 * k.val = k.val; omega
  rw [View.read_apply, hemb]
  exact k2_rows (iblk2 V c 0 t : Vec Ideal S10000x64 .f32) (V c (Pipeline.arrRef spec2 0) : S100000x64.Idx → EReal)
    (iblk2 V c 1 t : Vec Ideal S10000x1 .f32) (V c (Pipeline.arrRef spec2 1) : S100000x1.Idx → EReal)
    (V c (Pipeline.arrRef spec2 2) : S1x64.Idx → EReal) (V c (Pipeline.arrRef spec2 3) : S64x16.Idx → EReal)
    (V c (Pipeline.arrRef spec2 4) : S1x16.Idx → EReal)
    p ⟨10000 * t.val + p.val, by omega⟩ k
    (fun q => rows_S V c t p q _ rfl) (rows_D V c t p _ rfl)

/-- Row `i 0`, column `i 1` of the output array lies in point `t`'s block exactly when, on each axis, the coordinate
    is at least the block's first and below its last plus one. -/
theorem mem_blk (t : Fin cfg2.N) (i : S100000x16.Idx) :
    i ∈ ((cfg2.win 5).blk t).view.set ↔ ∀ a : Fin 2, win2_5.index t a * S10000x16.size a ≤ (i a).val
      ∧ (i a).val < win2_5.index t a * S10000x16.size a + S10000x16.size a := by
  show i ∈ ((View.whole main_v44).slice (win2_5.rect t)).set ↔ _
  rw [View.set_slice_whole, Rect.mem_set_unit]
  exact Iff.rfl

/-- The ten blocks tile the 100000 rows: row `r` is in the block of point `r / 10000` (whose rows are
    `10000 · (r / 10000) … 10000 · (r / 10000) + 9999`), and every point writes its block back. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 16 ≤ (i 1).val ∧ (i 1).val < win2_5.index t (1 : Fin 2) * 16 + 16
    omega

end Array2

/-- THE OUTPUT ARRAY after the ten points: the last stage `K2` of the array of messages, the column of scales, the bias
    row, the final linear map and its bias row, each as the region finds it, on all 100000 rows. -/
theorem final2 (V : (c : Dev nD) → (b : Ref sig .tc) → Buf (Elt Ideal) ((c : Thread nD τ).loc b)) (c : Dev nD) :
    (Gen.dat2 (F := Ideal) V c).arrAt 5 cfg2.N
      = Cert.Gcn.K2 (V c (Pipeline.arrRef spec2 0) : S100000x64.Idx → EReal)
        (V c (Pipeline.arrRef spec2 1) : S100000x1.Idx → EReal) (V c (Pipeline.arrRef spec2 2) : S1x64.Idx → EReal)
        (V c (Pipeline.arrRef spec2 3) : S64x16.Idx → EReal) (V c (Pipeline.arrRef spec2 4) : S1x16.Idx → EReal) :=
  (Gen.dat2 (F := Ideal) V c).arrAt_eq_of_cover 5 _ (fun t _ => Array2.flushed2 V c t) Array2.cover

end Cert.KernelIdeal.RegionValue

end
-- ==== Proof.KHost.lean ====
/-
  The idealized kernel's buffers at the boundaries between its host stretches and its grid regions.

  Before the first region the host computes, from the edge table, the edges' sources and destinations (the table's rows
  followed by one self-loop per node), each node's scale (the inverse square root of the number of edges ending in it,
  zero where none ends) as a column, and the first bias as a row. These are the same operations, in the same order, as
  the reference's: the buffers hold the reference's stages of the same table.
-/
import proofs.«152736_j48739288875467_2_alg».proof.Proof.Gen.KernelIdeal.Frame
import proofs.«152736_j48739288875467_2_alg».proof.Proof.RefReadP
import proofs.«152736_j48739288875467_2_alg».proof.Proof.Array0
import proofs.«152736_j48739288875467_2_alg».proof.Proof.Array1
import proofs.«152736_j48739288875467_2_alg».proof.Proof.Array2
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable [hK : Cert.KernelIdeal.Facts] [hR : Cert.ReferenceIdeal.Facts]
variable (m : (ℓ : Loc nD τ sig) → Buf (Elt Ideal) ℓ) (ρ : Dev nD → PrngReg)

set_option maxHeartbeats 4000000 in
/-- The edges' sources, before the first region. -/
theorem src_W3 (c : Dev nD) :
    W3 m ρ c (Proc.devRef .tc main_v5)
      = Cert.ReferenceIdeal.ReadP.val_main_v3 (F := Ideal) (m ((c : Thread nD τ).loc main_arg1)) := by
  dsimp only [W3, W2, W1]
  after_results
  rfl

set_option maxHeartbeats 4000000 in
/-- The edges' destinations, before the first region. -/
theorem dst_W3 (c : Dev nD) :
    W3 m ρ c (Proc.devRef .tc main_v6)
      = Cert.ReferenceIdeal.ReadP.val_main_v6 (F := Ideal) (m ((c : Thread nD τ).loc main_arg1)) := by
  dsimp only [W3, W2, W1]
  after_results
  rfl

set_option maxHeartbeats 4000000 in
/-- The number of edges ending in each node, as the first stretch leaves it. -/
theorem deg_W1 (c : Dev nD) :
    W1 m ρ c (Proc.devRef .tc main_v10)
      = Cert.ReferenceIdeal.ReadP.val_main_v10 (F := Ideal) (m ((c : Thread nD τ).loc main_arg1)) := by
  dsimp only [W1]
  after_results
  rfl

set_option maxHeartbeats 4000000 in
/-- The nodes' scales: the inverse square root of the count where it is positive, zero elsewhere. -/
theorem scale_W2 (c : Dev nD) :
    W2 m ρ c (Proc.devRef .tc main_v14)
      = Cert.ReferenceIdeal.ReadP.val_main_v14 (F := Ideal) (m ((c : Thread nD τ).loc main_arg1)) := by
  have h12 : W1 m ρ c (Proc.devRef .tc main_v12)
      = Cert.ReferenceIdeal.ReadP.val_main_v12 (F := Ideal) (m ((c : Thread nD τ).loc main_arg1)) := by
    dsimp only [W1]
    after_results
    rfl
  have h13 : W1 m ρ c (Proc.devRef .tc main_v13)
      = Cert.ReferenceIdeal.ReadP.val_main_v13 (F := Ideal) (m ((c : Thread nD τ).loc main_arg1)) := by
    dsimp only [W1]
    after_results
    rfl
  have hc : W1 m ρ c (Proc.devRef .tc main_cst_2) = Cert.ReferenceIdeal.ReadP.val_main_cst_2 (F := Ideal) := by
    dsimp only [W1]
    after_results
    rfl
  dsimp only [W2]
  generalize W1 m ρ c = V1 at h12 h13 hc ⊢
  after_results
  unfold Cert.ReferenceIdeal.ReadP.val_main_v14 Cert.ReferenceIdeal.ReadP.val_main_call0_v1
    Cert.ReferenceIdeal.ReadP.val_main_call0_v0
  rw [← h12, ← h13, ← hc]
  rfl

set_option maxHeartbeats 4000000 in
/-- The nodes' scales as a column, before the first region. -/
theorem scale_W3 (c : Dev nD) :
    W3 m ρ c (Proc.devRef .tc main_v15)
      = shapeCast S100000x1 (Cert.ReferenceIdeal.ReadP.val_main_v14 (F := Ideal) (m ((c : Thread nD τ).loc main_arg1)))
          shapeCasts_S100000_S100000x1 := by
  have h := scale_W2 m ρ c
  dsimp only [W3]
  generalize W2 m ρ c = V2 at h ⊢
  after_results
  rw [← h]
  rfl

set_option maxHeartbeats 4000000 in
/-- The first bias as a row, before the first region. -/
theorem bias0_W3 (c : Dev nD) :
    W3 m ρ c (Proc.devRef .tc main_v16) = shapeCast S1x64 (m ((c : Thread nD τ).loc main_arg3)) shapeCasts_S64_S1x64 := by
  dsimp only [W3, W2, W1]
  after_results
  rfl

set_option maxHeartbeats 4000000 in
theorem arg0_W3 (c : Dev nD) : W3 m ρ c (Proc.devRef .tc main_arg0) = m ((c : Thread nD τ).loc main_arg0) := by
  dsimp only [W3, W2, W1]
  after_results
set_option maxHeartbeats 4000000 in
theorem arg2_W3 (c : Dev nD) : W3 m ρ c (Proc.devRef .tc main_arg2) = m ((c : Thread nD τ).loc main_arg2) := by
  dsimp only [W3, W2, W1]
  after_results
set_option maxHeartbeats 4000000 in
theorem arg4_W3 (c : Dev nD) : W3 m ρ c (Proc.devRef .tc main_arg4) = m ((c : Thread nD τ).loc main_arg4) := by
  dsimp only [W3, W2, W1]
  after_results

/-! ## The first region -/

/-- After the first region its output holds the first fused stage of the region's inputs. -/
theorem out0_W4 (c : Dev nD) :
    W4 m ρ c (Proc.devRef .tc main_v17)
      = Cert.Gcn.K0 (m ((c : Thread nD τ).loc main_arg0)) (m ((c : Thread nD τ).loc main_arg2))
          (shapeCast S1x64 (m ((c : Thread nD τ).loc main_arg3)) shapeCasts_S64_S1x64) (m ((c : Thread nD τ).loc main_arg4))
          (shapeCast S100000x1 (Cert.ReferenceIdeal.ReadP.val_main_v14 (F := Ideal) (m ((c : Thread nD τ).loc main_arg1)))
            shapeCasts_S100000_S100000x1) := by
  refine (W4_arr m ρ c 5).trans ((Cert.KernelIdeal.RegionValue.final0 (V3 m ρ) c).trans ?_)
  show Cert.Gcn.K0 (W3 m ρ c (Proc.devRef .tc main_arg0)) (W3 m ρ c (Proc.devRef .tc main_arg2))
    (W3 m ρ c (Proc.devRef .tc main_v16)) (W3 m ρ c (Proc.devRef .tc main_arg4)) (W3 m ρ c (Proc.devRef .tc main_v15)) = _
  rw [arg0_W3, arg2_W3, bias0_W3, arg4_W3, scale_W3]

/-! ## The aggregation between two regions -/

/-- The host's aggregation of an array of rows along the edges: each edge looks up its source's row (a negative index
    counting from the end), and the looked-up rows are summed into the edges' destinations from a zero array. -/
def aggHost (dstV srcV : (⟨S1700000, .i32⟩ : BufTy).Contents (Elt Ideal))
    (A : (⟨S100000x64, .bf16⟩ : BufTy).Contents (Elt Ideal)) : (⟨S100000x64, .f32⟩ : BufTy).Contents (Elt Ideal) :=
  Host.scatterAdd (F := Ideal) scatter_S100000x64_S1700000x1_S1700000x64_1_0_0_1
    (broadcastInDim S100000x64 ![] bcast_S_S100000x64 (constant S_ .f32 0x00000000#32))
    (broadcastInDim S1700000x1 ![0] bcast_S1700000_S1700000x1_0 dstV)
    (extf (F := Ideal) .f32
      (Host.gather gather_S100000x64_S1700000x1_S1700000x64_1_0_n_n_0_1_164 A
        (broadcastInDim S1700000x1 ![0] bcast_S1700000_S1700000x1_0
          (select (cmpi .slt srcV (broadcastInDim S1700000 ![] bcast_S_S1700000 (constantI S_ 32 0#32)))
            (addi srcV (broadcastInDim S1700000 ![] bcast_S_S1700000 (constantI S_ 32 100000#32))) srcV)))
      bitsLt_bf16_f32)

set_option maxHeartbeats 4000000 in
/-- Before the second region its first input holds the aggregation of the first region's output. -/
theorem agg_W5 (c : Dev nD) :
    W5 m ρ c (Proc.devRef .tc main_v28)
      = aggHost (W4 m ρ c (Proc.devRef .tc main_v6)) (W4 m ρ c (Proc.devRef .tc main_v5)) (W4 m ρ c (Proc.devRef .tc main_v17)) := by
  dsimp only [W5]
  generalize W4 m ρ c = V4
  after_results
  rfl

set_option maxHeartbeats 4000000 in
theorem bias1_W5 (c : Dev nD) :
    W5 m ρ c (Proc.devRef .tc main_v29) = shapeCast S1x64 (W4 m ρ c (Proc.devRef .tc main_arg5)) shapeCasts_S64_S1x64 := by
  dsimp only [W5]
  after_results
  rfl

/-! ## Buffers carried across regions and stretches that do not write them -/

set_option maxHeartbeats 4000000 in
theorem main_arg5_W3 (c : Dev nD) : W3 m ρ c (Proc.devRef .tc main_arg5) = m ((c : Thread nD τ).loc main_arg5) := by
  dsimp only [W3, W2, W1]
  after_results

set_option maxHeartbeats 4000000 in
theorem main_arg6_W3 (c : Dev nD) : W3 m ρ c (Proc.devRef .tc main_arg6) = m ((c : Thread nD τ).loc main_arg6) := by
  dsimp only [W3, W2, W1]
  after_results

set_option maxHeartbeats 4000000 in
theorem main_arg7_W3 (c : Dev nD) : W3 m ρ c (Proc.devRef .tc main_arg7) = m ((c : Thread nD τ).loc main_arg7) := by
  dsimp only [W3, W2, W1]
  after_results

set_option maxHeartbeats 4000000 in
theorem main_arg8_W3 (c : Dev nD) : W3 m ρ c (Proc.devRef .tc main_arg8) = m ((c : Thread nD τ).loc main_arg8) := by
  dsimp only [W3, W2, W1]
  after_results

set_option maxHeartbeats 4000000 in
theorem main_arg9_W3 (c : Dev nD) : W3 m ρ c (Proc.devRef .tc main_arg9) = m ((c : Thread nD τ).loc main_arg9) := by
  dsimp only [W3, W2, W1]
  after_results

theorem main_v5_W4 (c : Dev nD) : W4 m ρ c (Proc.devRef .tc main_v5) = W3 m ρ c (Proc.devRef .tc main_v5) :=
  W4_of_ne m ρ c main_v5 (by decide)

theorem main_v6_W4 (c : Dev nD) : W4 m ρ c (Proc.devRef .tc main_v6) = W3 m ρ c (Proc.devRef .tc main_v6) :=
  W4_of_ne m ρ c main_v6 (by decide)

theorem main_arg5_W4 (c : Dev nD) : W4 m ρ c (Proc.devRef .tc main_arg5) = W3 m ρ c (Proc.devRef .tc main_arg5) :=
  W4_of_ne m ρ c main_arg5 (by decide)

/-- The scales' column is an input of every region: a region leaves its input arrays as it found them. -/
theorem main_v15_W4 (c : Dev nD) : W4 m ρ c (Proc.devRef .tc main_v15) = W3 m ρ c (Proc.devRef .tc main_v15) :=
  (W4_arr m ρ c 4).trans (((dat0 (V3 m ρ) c).arrAt_in 4 rfl _).trans (A_eq0 (V3 m ρ) c 4))
set_option maxHeartbeats 4000000 in
theorem main_v15_W5 (c : Dev nD) : W5 m ρ c (Proc.devRef .tc main_v15) = W3 m ρ c (Proc.devRef .tc main_v15) := by
  have h : W5 m ρ c (Proc.devRef .tc main_v15) = W4 m ρ c (Proc.devRef .tc main_v15) := by
    dsimp only [W5]
    after_results
  exact h.trans (main_v15_W4 m ρ c)
theorem main_v15_W6 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))

set_option maxHeartbeats 4000000 in
theorem main_arg6_W5 (c : Dev nD) : W5 m ρ c (Proc.devRef .tc main_arg6) = W3 m ρ c (Proc.devRef .tc main_arg6) := by
  have h : W5 m ρ c (Proc.devRef .tc main_arg6) = W4 m ρ c (Proc.devRef .tc main_arg6) := by
    dsimp only [W5]
    after_results
  exact h.trans (W4_of_ne m ρ c main_arg6 (by decide))

set_option maxHeartbeats 4000000 in
theorem main_v5_W6 (c : Dev nD) : W6 m ρ c (Proc.devRef .tc main_v5) = W3 m ρ c (Proc.devRef .tc main_v5) := by
  have h : W5 m ρ c (Proc.devRef .tc main_v5) = W4 m ρ c (Proc.devRef .tc main_v5) := by
    dsimp only [W5]
    after_results
  exact (W6_of_ne m ρ c main_v5 (by decide)).trans (h.trans (W4_of_ne m ρ c main_v5 (by decide)))

set_option maxHeartbeats 4000000 in
theorem main_v6_W6 (c : Dev nD) : W6 m ρ c (Proc.devRef .tc main_v6) = W3 m ρ c (Proc.devRef .tc main_v6) := by
  have h : W5 m ρ c (Proc.devRef .tc main_v6) = W4 m ρ c (Proc.devRef .tc main_v6) := by
    dsimp only [W5]
    after_results
  exact (W6_of_ne m ρ c main_v6 (by decide)).trans (h.trans (W4_of_ne m ρ c main_v6 (by decide)))

set_option maxHeartbeats 4000000 in
theorem main_arg7_W6 (c : Dev nD) : W6 m ρ c (Proc.devRef .tc main_arg7) = W3 m ρ c (Proc.devRef .tc main_arg7) := by
  have h : W5 m ρ c (Proc.devRef .tc main_arg7) = W4 m ρ c (Proc.devRef .tc main_arg7) := by
    dsimp only [W5]
    after_results
  exact (W6_of_ne m ρ c main_arg7 (by decide)).trans (h.trans (W4_of_ne m ρ c main_arg7 (by decide)))

set_option maxHeartbeats 4000000 in
theorem main_arg9_W6 (c : Dev nD) : W6 m ρ c (Proc.devRef .tc main_arg9) = W3 m ρ c (Proc.devRef .tc main_arg9) := by
  have h : W5 m ρ c (Proc.devRef .tc main_arg9) = W4 m ρ c (Proc.devRef .tc main_arg9) := by
    dsimp only [W5]
    after_results
  exact (W6_of_ne m ρ c main_arg9 (by decide)).trans (h.trans (W4_of_ne m ρ c main_arg9 (by decide)))

set_option maxHeartbeats 4000000 in
theorem main_v15_W7 (c : Dev nD) : W7 m ρ c (Proc.devRef .tc main_v15) = W3 m ρ c (Proc.devRef .tc main_v15) := by
  have h7 : W7 m ρ c (Proc.devRef .tc main_v15) = W6 m ρ c (Proc.devRef .tc main_v15) := by
    dsimp only [W7]
    after_results
  exact h7.trans ((main_v15_W6 m ρ c).trans (main_v15_W5 m ρ c))

set_option maxHeartbeats 4000000 in
theorem main_arg8_W7 (c : Dev nD) : W7 m ρ c (Proc.devRef .tc main_arg8) = W3 m ρ c (Proc.devRef .tc main_arg8) := by
  have h7 : W7 m ρ c (Proc.devRef .tc main_arg8) = W6 m ρ c (Proc.devRef .tc main_arg8) := by
    dsimp only [W7]
    after_results
  have h : W5 m ρ c (Proc.devRef .tc main_arg8) = W4 m ρ c (Proc.devRef .tc main_arg8) := by
    dsimp only [W5]
    after_results
  exact h7.trans ((W6_of_ne m ρ c main_arg8 (by decide)).trans (h.trans (W4_of_ne m ρ c main_arg8 (by decide))))

/-! ## The second region -/

/-- After the second region its output holds the second fused stage of the region's inputs. -/
theorem out1_W6 (c : Dev nD) :
    W6 m ρ c (Proc.devRef .tc main_v30)
      = Cert.Gcn.K1 (W5 m ρ c (Proc.devRef .tc main_v28)) (W5 m ρ c (Proc.devRef .tc main_v15))
          (W5 m ρ c (Proc.devRef .tc main_v29)) (W5 m ρ c (Proc.devRef .tc main_arg6)) :=
  (W6_arr m ρ c 4).trans (Cert.KernelIdeal.RegionValue.final1 (V5 m ρ) c)

set_option maxHeartbeats 4000000 in
/-- Before the third region its first input holds the aggregation of the second region's output. -/
theorem agg_W7 (c : Dev nD) :
    W7 m ρ c (Proc.devRef .tc main_v41)
      = aggHost (W6 m ρ c (Proc.devRef .tc main_v6)) (W6 m ρ c (Proc.devRef .tc main_v5)) (W6 m ρ c (Proc.devRef .tc main_v30)) := by
  dsimp only [W7]
  generalize W6 m ρ c = V6
  after_results
  rfl

set_option maxHeartbeats 4000000 in
theorem bias2_W7 (c : Dev nD) :
    W7 m ρ c (Proc.devRef .tc main_v42) = shapeCast S1x64 (W6 m ρ c (Proc.devRef .tc main_arg7)) shapeCasts_S64_S1x64 := by
  dsimp only [W7]
  after_results
  rfl

set_option maxHeartbeats 4000000 in
theorem bias3_W7 (c : Dev nD) :
    W7 m ρ c (Proc.devRef .tc main_v43) = shapeCast S1x16 (W6 m ρ c (Proc.devRef .tc main_arg9)) shapeCasts_S16_S1x16 := by
  dsimp only [W7]
  after_results
  rfl

/-! ## The third region and the result -/

/-- After the third region its output holds the third fused stage of the region's inputs. -/
theorem out2_W8 (c : Dev nD) :
    W8 m ρ c (Proc.devRef .tc main_v44)
      = Cert.Gcn.K2 (W7 m ρ c (Proc.devRef .tc main_v41)) (W7 m ρ c (Proc.devRef .tc main_v15))
          (W7 m ρ c (Proc.devRef .tc main_v42)) (W7 m ρ c (Proc.devRef .tc main_arg8)) (W7 m ρ c (Proc.devRef .tc main_v43)) :=
  (W8_arr m ρ c 5).trans (Cert.KernelIdeal.RegionValue.final2 (V7 m ρ) c)

/-- The kernel's result as the three fused stages chained through the two aggregations, over the launch memory's
    arguments and the reference's stages of the edge table. -/
theorem result_W8 (c : Dev nD) :
    W8 m ρ c (Proc.devRef .tc main_v44)
      = Cert.Gcn.K2
          (aggHost (Cert.ReferenceIdeal.ReadP.val_main_v6 (F := Ideal) (m ((c : Thread nD τ).loc main_arg1)))
            (Cert.ReferenceIdeal.ReadP.val_main_v3 (F := Ideal) (m ((c : Thread nD τ).loc main_arg1)))
            (Cert.Gcn.K1
              (aggHost (Cert.ReferenceIdeal.ReadP.val_main_v6 (F := Ideal) (m ((c : Thread nD τ).loc main_arg1)))
                (Cert.ReferenceIdeal.ReadP.val_main_v3 (F := Ideal) (m ((c : Thread nD τ).loc main_arg1)))
                (Cert.Gcn.K0 (m ((c : Thread nD τ).loc main_arg0)) (m ((c : Thread nD τ).loc main_arg2))
                  (shapeCast S1x64 (m ((c : Thread nD τ).loc main_arg3)) shapeCasts_S64_S1x64) (m ((c : Thread nD τ).loc main_arg4))
                  (shapeCast S100000x1 (Cert.ReferenceIdeal.ReadP.val_main_v14 (F := Ideal) (m ((c : Thread nD τ).loc main_arg1)))
                    shapeCasts_S100000_S100000x1)))
              (shapeCast S100000x1 (Cert.ReferenceIdeal.ReadP.val_main_v14 (F := Ideal) (m ((c : Thread nD τ).loc main_arg1)))
                shapeCasts_S100000_S100000x1)
              (shapeCast S1x64 (m ((c : Thread nD τ).loc main_arg5)) shapeCasts_S64_S1x64) (m ((c : Thread nD τ).loc main_arg6))))
          (shapeCast S100000x1 (Cert.ReferenceIdeal.ReadP.val_main_v14 (F := Ideal) (m ((c : Thread nD τ).loc main_arg1)))
            shapeCasts_S100000_S100000x1)
          (shapeCast S1x64 (m ((c : Thread nD τ).loc main_arg7)) shapeCasts_S64_S1x64) (m ((c : Thread nD τ).loc main_arg8))
          (shapeCast S1x16 (m ((c : Thread nD τ).loc main_arg9)) shapeCasts_S16_S1x16) := by
  rw [out2_W8, agg_W7, bias2_W7, bias3_W7, out1_W6, agg_W5, bias1_W5, out0_W4]
  rw [main_v15_W7, main_arg8_W7, main_v6_W6, main_v5_W6, main_arg7_W6, main_arg9_W6, main_v15_W5, main_arg6_W5,
    main_v6_W4, main_v5_W4, main_arg5_W4]
  rw [scale_W3, main_arg8_W3, dst_W3, src_W3, main_arg7_W3, main_arg9_W3, main_arg6_W3, main_arg5_W3]

end Cert.KernelIdeal.HostValue

end
-- ==== Proof.LibSegment.lean ====
/-
  Segment sums and row look-ups, read at an entry, for any sizes.

  A graph layer moves rows around by integer tables: a look-up takes row `idx[e]` of an array for every entry `e` of the
  table (the start index read as a signed integer and clamped into the array), and a segment sum adds update `e` into row
  `idx[e]` of an accumulator (the index read signed and NOT clamped: an update whose index is outside the array is
  dropped). Both are read here at one entry, for a table stored as an `M × 1` column: the look-up of a vector or of a
  matrix's rows is the operand at the clamped index, and the accumulated array at `c` is the old value plus the sum, over
  the table's entries `e` whose index is exactly `c`, of update `e`.
-/
import Idealize.ShloMosaic.Lib.ValueIdx
import Idealize.ShloMosaic.Lib.Pipeline.Value
import Idealize.ShloMosaic.PureOps.Ideal.Laws

noncomputable section

open scoped BigOperators

namespace Cert.Lib.Segment

open Idealize.ShloMosaic Idealize.ShloMosaic.ValueIdx

/-! ## Sums over a one-axis index set -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-! ## One row of a table as a vector -/

/-- Row `r` of an `R × M` table, sliced out as a `1 × M` array and flattened, reads at `e` the table's entry `(r, e)`. -/
theorem tableRow_apply {α : Type} {R M : ℕ} (x : (⟨2, ![R, M]⟩ : Shape).Idx → α) (r : Fin R) (off : Fin 2 → ℕ)
    (h0 : off 0 = r.val) (h1 : off 1 = 0) (h : (⟨2, ![R, M]⟩ : Shape).Slices off ⟨2, ![1, M]⟩)
    (h' : (⟨2, ![1, M]⟩ : Shape).ShapeCasts ⟨1, ![M]⟩) (e : Fin M) :
    shapeCast ⟨1, ![M]⟩ (extractStridedSlice ⟨2, ![1, M]⟩ off x h) h' (ix1 e) = x (ix2 r e) := by
  rw [shapeCast_apply _ h' (ix1 e) (ix2 (0 : Fin 1) e) (by
    rw [Shape.rowMajor_val_two, Shape.rowMajor_val_one]
    show 0 * M + e.val = e.val
    omega)]
  refine extractStridedSlice_apply off x h _ _ fun a => ?_
  rcases (by decide : ∀ a : Fin 2, a = 0 ∨ a = 1) a with rfl | rfl
  · show r.val = off 0 + 0
    omega
  · show e.val = off 1 + e.val
    omega

/-! ## Where an update lands -/

/-- An update lands on the operand index `i` exactly when, on every axis, its start plus its window coordinate is
    `i`'s coordinate (a landing place outside the operand is no index at all). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := Option.some.inj e
      have := congrFun e' a
      rw [← this]
      show _ = (((d.start j idx a + (d.window j a : ℤ)).toNat : ℕ) : ℤ)
      rw [Int.toNat_of_nonneg (h a).1]
    · intro hi
      congr 1
      funext a
      refine Fin.ext ?_
      show (d.start j idx a + (d.window j a : ℤ)).toNat = (i a).val
      rw [hi a, Int.toNat_natCast]
  · rename_i h
    constructor
    · intro e; exact absurd e (by simp)
    · intro hi
      exact absurd (fun a => by rw [hi a]; exact ⟨Int.natCast_nonneg _, by exact_mod_cast (i a).isLt⟩) h

/-! ## A segment sum into a vector -/

/-- The dimension numbers of `M` scalar updates added into a length-`N` vector at the indices an `M × 1` column names. -/
abbrev scat1 (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scat1_lands {N M w : ℕ} (wf : ScatterDims.WF ⟨1, ![N]⟩ ⟨2, ![M, 1]⟩ ⟨1, ![M]⟩ [] [0] [0] 1)
    (idx : IVec ⟨2, ![M, 1]⟩ w) (e : Fin M) (c : Fin N) :
    (scat1 N M wf).resultIdx? (ix1 e) idx = some (ix1 c) ↔ (idx (ix2 e (0 : Fin 1))).toInt = (c.val : ℤ) := by
  rw [resultIdx?_eq_some_iff]
  have hsi : (scat1 N M wf).siIdx (ix1 e) ⟨List.idxOf (0 : Fin 1) (scat1 N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat1 N M wf).start (ix1 e) idx 0 + ((scat1 N M wf).window (ix1 e) 0 : ℤ) = (idx (ix2 e (0 : Fin 1))).toInt := by
    unfold ScatterDims.start ScatterDims.window
    rw [dif_pos (show (0 : Fin 1) ∈ (scat1 N M wf).scatterDimsToOperandDims from List.mem_singleton.mpr rfl),
      dif_neg (show (0 : Fin 1) ∉ (scat1 N M wf).sKept from by simp [Shape.kept]), hsi]
    simp
  constructor
  · intro h; rw [← h0]; exact h 0
  · intro h a
    obtain rfl : a = 0 := Subsingleton.elim _ _
    rw [h0]; exact h

/-- The vector after the segment sum, at `c`: the old entry plus the updates whose index is `c`. -/
theorem scatterAdd_vec_apply {N M w : ℕ} {φ : FTy} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (scat1 N M wf) x idx upd (ix1 c)
      = x (ix1 c) + ∑ e : Fin M, if (idx (ix2 e (0 : Fin 1))).toInt = (c.val : ℤ) then upd (ix1 e) else 0 := by
  show Ideal.hostScatterAdd (scat1 N M wf) x idx upd (ix1 c) = _
  unfold Ideal.hostScatterAdd
  congr 1
  rw [Finset.sum_filter, sum_idx1]
  refine Finset.sum_congr rfl fun e _ => ?_
  by_cases h : (idx (ix2 e (0 : Fin 1))).toInt = (c.val : ℤ)
  · rw [if_pos h, if_pos ((scat1_lands wf idx e c).mpr h)]
  · rw [if_neg h, if_neg (mt (scat1_lands wf idx e c).mp h)]

/-! ## A segment sum of rows into a matrix -/

/-- The dimension numbers of `M` rows of length `K` added into the rows of an `N × K` matrix that an `M × 1` column names. -/
abbrev scat2 (N K M : ℕ) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem scat2_lands {N K M w : ℕ} (wf : ScatterDims.WF ⟨2, ![N, K]⟩ ⟨2, ![M, 1]⟩ ⟨2, ![M, K]⟩ [1] [0] [0] 1)
    (idx : IVec ⟨2, ![M, 1]⟩ w) (e : Fin M) (k' : Fin K) (c : Fin N) (k : Fin K) :
    (scat2 N K M wf).resultIdx? (ix2 e k') idx = some (ix2 c k)
      ↔ (idx (ix2 e (0 : Fin 1))).toInt = (c.val : ℤ) ∧ k' = k := by
  rw [resultIdx?_eq_some_iff]
  have hsi : (scat2 N K M wf).siIdx (ix2 e k') ⟨List.idxOf (0 : Fin 2) (scat2 N K M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat2 N K M wf).start (ix2 e k') idx 0 + ((scat2 N K M wf).window (ix2 e k') 0 : ℤ)
      = (idx (ix2 e (0 : Fin 1))).toInt := by
    unfold ScatterDims.start ScatterDims.window
    rw [dif_pos (show (0 : Fin 2) ∈ (scat2 N K M wf).scatterDimsToOperandDims from List.mem_singleton.mpr rfl),
      dif_neg (show (0 : Fin 2) ∉ (scat2 N K M wf).sKept from by simp [Shape.kept]), hsi]
    simp
  have h1 : (scat2 N K M wf).start (ix2 e k') idx 1 + ((scat2 N K M wf).window (ix2 e k') 1 : ℤ) = (k'.val : ℤ) := by
    unfold ScatterDims.start ScatterDims.window
    rw [dif_neg (show (1 : Fin 2) ∉ (scat2 N K M wf).scatterDimsToOperandDims from by simp),
      dif_pos (show (1 : Fin 2) ∈ (scat2 N K M wf).sKept from by simp [Shape.kept])]
    simp
    rfl
  constructor
  · intro h
    refine ⟨by rw [← h0]; exact h 0, Fin.ext ?_⟩
    have := h 1; rw [h1] at this; exact_mod_cast this
  · rintro ⟨h, rfl⟩ a
    rcases (by decide : ∀ a : Fin 2, a = 0 ∨ a = 1) a with rfl | rfl
    · rw [h0]; exact h
    · exact h1

/-- The matrix after the segment sum, at `(c, k)`: the old entry plus column `k` of the update rows whose index is `c`. -/
theorem scatterAdd_rows_apply {N K M w : ℕ} {φ : FTy}
    (wf : ScatterDims.WF ⟨2, ![N, K]⟩ ⟨2, ![M, 1]⟩ ⟨2, ![M, K]⟩ [1] [0] [0] 1)
    (x : FVec Ideal ⟨2, ![N, K]⟩ φ) (idx : IVec ⟨2, ![M, 1]⟩ w) (upd : FVec Ideal ⟨2, ![M, K]⟩ φ) (c : Fin N) (k : Fin K) :
    Host.scatterAdd (scat2 N K M wf) x idx upd (ix2 c k)
      = x (ix2 c k) + ∑ e : Fin M, if (idx (ix2 e (0 : Fin 1))).toInt = (c.val : ℤ) then upd (ix2 e k) else 0 := by
  show Ideal.hostScatterAdd (scat2 N K M wf) x idx upd (ix2 c k) = _
  unfold Ideal.hostScatterAdd
  congr 1
  rw [Finset.sum_filter, sum_idx2]
  refine Finset.sum_congr rfl fun e _ => ?_
  by_cases h : (idx (ix2 e (0 : Fin 1))).toInt = (c.val : ℤ)
  · rw [if_pos h, Finset.sum_eq_single k]
    · rw [if_pos ((scat2_lands wf idx e k c k).mpr ⟨h, rfl⟩)]
    · intro k' _ hk
      rw [if_neg (fun hl => hk ((scat2_lands wf idx e k' c k).mp hl).2)]
    · intro hk; exact absurd (Finset.mem_univ k) hk
  · rw [if_neg h]
    exact Finset.sum_eq_zero fun k' _ => if_neg (fun hl => h ((scat2_lands wf idx e k' c k).mp hl).1)

/-! ## Look-ups -/

/-- The dimension numbers of a look-up of `M` entries of a length-`N` vector at the indices an `M × 1` column names. -/
abbrev gath1 (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The clamped place a signed index word names in an array of `N` rows. -/
def clampIdx {w : ℕ} (N : ℕ) (hN : 0 < N) (v : BitVec w) : Fin N := ⟨min v.toInt.toNat (N - 1), by omega⟩

/-- The look-up in a vector at `e`: the vector at the clamped index. -/
theorem gather_vec_apply {α : Type} {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 (clampIdx N hN (idx (ix2 e (0 : Fin 1))))) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a look-up of `M` whole rows of an `N × K` matrix at the indices an `M × 1` column names. -/
abbrev gath2 (N K M : ℕ) (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- The look-up of rows at `(e, k)`: the matrix at the clamped row, column `k`. -/
theorem gather_rows_apply {α : Type} {N K M w : ℕ} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (k : Fin K) :
    Host.gather (gath2 N K M wf) x idx (ix2 e k) = x (ix2 (clampIdx N hN (idx (ix2 e (0 : Fin 1)))) k) := by
  unfold Host.gather
  congr 1
  have hsi : (gath2 N K M wf).siIdx (ix2 e k) ⟨List.idxOf (0 : Fin 2) (gath2 N K M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  funext a
  refine Fin.ext ?_
  show (gath2 N K M wf).start (ix2 e k) idx a + (gath2 N K M wf).batchCoord (ix2 e k) a + (gath2 N K M wf).offCoord (ix2 e k) a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N K M wf).startIndexMap from List.mem_singleton.mpr rfl), hsi]
    rfl
  · unfold GatherDims.start GatherDims.offCoord
    rw [dif_neg (show (1 : Fin 2) ∉ (gath2 N K M wf).startIndexMap from by simp),
      dif_pos (show (1 : Fin 2) ∈ (gath2 N K M wf).sKept from by simp [Shape.kept])]
    simp
    rfl

end Cert.Lib.Segment

end
-- ==== Proof.LibScaledSum.lean ====
/-
  Scaling a segment sum on the extended reals, for any index set and any number of edges.

  A graph convolution weighs the message along an edge `e` from `src e` to `dst e` by the product of the two end
  points' scales. Summed over the edges that end in a node `d`, the scale of `d` is a common factor: it may be taken
  out of the sum. On the extended reals a factor moves across a sum only when it is a nonnegative number that is not
  `+∞` (a negative factor, or an infinite one against summands of both signs, does not distribute), which is what an
  inverse square root of a positive count, or zero, is.
-/
import Idealize.ShloMosaic.PureOps.Ideal

open scoped BigOperators

namespace Cert.Lib.ScaledSum

/-- A nonnegative finite factor distributes over a finite sum of extended reals. -/
theorem mul_sum_of_nonneg_ne_top {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The sum over the edges `e` that end in a fixed node (`p e`) of `a e · s e`, started from zero and then scaled by
    the node's own scale `c`, is the sum of `a e · (s e · t e)` over the same edges when `t e = c` on them. -/
theorem scale_segment {M : ℕ} (p : Fin M → Prop) [DecidablePred p] (a s t : Fin M → EReal) (c : EReal)
    (h0 : 0 ≤ c) (htop : c ≠ ⊤) (ht : ∀ e, p e → t e = c) :
    c * (0 + ∑ e, if p e then a e * s e else 0) = 0 + ∑ e, if p e then a e * (s e * t e) else 0 := by
  rw [zero_add, zero_add, mul_sum_of_nonneg_ne_top _ c h0 htop]
  refine Finset.sum_congr rfl fun e _ => ?_
  by_cases h : p e
  · rw [if_pos h, if_pos h, ht e h, mul_comm c, mul_assoc]
  · rw [if_neg h, if_neg h, mul_zero]

end Cert.Lib.ScaledSum
-- ==== Proof.RefIdx.lean ====
/-
  The reference's stages read at an entry.

  The reference is a two-layer graph convolution over an edge table. With `src e` and `dst e` the end points of edge
  `e` (the table's two rows followed by one self-loop per node), `deg` the number of edges ending in a node and
  `dinv = 1/√deg` (zero where no edge ends), a layer takes the rows `T` of the transformed features and leaves in row
  `p` the sum over the edges with `dst e = p` of `T (src e) · (dinv (src e) · dinv (dst e))`. A look-up reads a
  negative index from the end and clamps the rest into the array; a sum drops an edge whose `dst` is not a row.
-/
import proofs.«152736_j48739288875467_2_alg».proof.Proof.RefReadP
import proofs.«152736_j48739288875467_2_alg».proof.Proof.LibSegment
import proofs.«152736_j48739288875467_2_alg».proof.Proof.LibRows
import proofs.«152736_j48739288875467_2_alg».proof.Proof.LibScaledSum

noncomputable section

open scoped BigOperators

namespace Cert.ReferenceIdeal.RefValue

open Cert.ReferenceIdeal Cert.ReferenceIdeal.ReadP Cert.Lib.Segment Cert.Lib.Rows
open Cert.ReferenceIdeal.Facts₀ Cert.ReferenceIdeal.Facts
open Idealize.ShloMosaic Idealize.ShloMosaic.ValueIdx

variable [hR : Cert.ReferenceIdeal.Facts]

/-- A look-up's index: a negative index counts from the end of a 100000-row array. -/
def wrap (b : BitVec 32) : BitVec 32 := Scalar.select (IntOp.cmpi .slt b 0#32) (IntOp.addi b 100000#32) b

/-- The row a look-up reads: the index counted from the end if negative, then clamped into the array. -/
def rowOf (b : BitVec 32) : Fin 100000 := clampIdx 100000 (by norm_num) (wrap b)

/-- An index that is a row's number reads that row. -/
theorem rowOf_of_toInt (b : BitVec 32) (p : Fin 100000) (h : b.toInt = (p.val : ℤ)) : rowOf b = p := by
  have hp := p.isLt
  have hns : b.slt 0#32 = false := by
    unfold BitVec.slt
    simp only [decide_eq_false_iff_not, not_lt]
    rw [h]; simp
  unfold rowOf wrap IntOp.cmpi Scalar.select
  simp only [hns]
  refine Fin.ext ?_
  show min (b.toInt.toNat) (100000 - 1) = p.val
  rw [h]; simp; omega

/-! ## The per-node scale -/

/-- The inverse square root of a count where the count is positive, zero elsewhere, is a nonnegative number and is
    not `+∞` — whatever extended real the count is. -/
theorem scale_bounds (a : EReal) :
    0 ≤ Scalar.select (Ideal.cmp .ogt a 0) (Ideal.rsqrt a) (0 : EReal)
      ∧ Scalar.select (Ideal.cmp .ogt a 0) (Ideal.rsqrt a) (0 : EReal) ≠ ⊤ := by
  unfold Scalar.select Ideal.cmp
  by_cases h : (0 : EReal) < a
  · simp only [h, decide_true, BitVec.ofBool_true, if_true]
    induction a using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · simp [h]

variable (x1 : (⟨S2x1600000, .i32⟩ : BufTy).Contents (Elt Ideal))

/-- Edge `e`'s source and destination words, and node `r`'s scale. -/
abbrev src (e : Fin 1700000) : BitVec 32 := val_main_v3 (F := Ideal) x1 (ix1 e)
abbrev dst (e : Fin 1700000) : BitVec 32 := val_main_v6 (F := Ideal) x1 (ix1 e)
abbrev dinv (r : Fin 100000) : EReal := val_main_v14 (F := Ideal) x1 (ix1 r)

/-- Every node's scale is a nonnegative number that is not `+∞`. -/
theorem dinv_bounds (r : Fin 100000) : 0 ≤ dinv x1 r ∧ dinv x1 r ≠ ⊤ := by
  have e : dinv x1 r = Scalar.select (Ideal.cmp .ogt (val_main_v10 (F := Ideal) x1 (ix1 r)) 0)
      (Ideal.rsqrt (val_main_v10 (F := Ideal) x1 (ix1 r))) 0 := by
    show val_main_v14 (F := Ideal) x1 (ix1 r) = _
    rw [val_main_v14_apply, val_main_v12_apply, val_main_v13_apply, val_main_v11_apply, val_main_cst_1_apply,
      val_main_call0_v1_apply, val_main_call0_v0_apply, val_main_cst_2_apply]
    simp only [Ideal.ofBits_def, Ideal.ofBits_zero_f32]
    generalize val_main_v10 (F := Ideal) x1 (ix1 r) = a
    rfl
  rw [e]; exact scale_bounds _

/-! ## Columns -/

/-- A length-`n` array made an `n × 1` column reads, at row `e`, the array at `e`. -/
theorem column_apply {α : Type} {n : ℕ} (v : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h v (ix2 e u) = v (ix1 e) := by
  refine broadcastInDim_apply _ h v (ix2 e u) (ix1 e) fun ax => ?_
  match ax with
  | ⟨0, _⟩ =>
    show e.val = if n = 1 then 0 else e.val
    split
    · have := e.isLt; omega
    · rfl

/-! ## Look-ups and segment sums in this program's spelling -/

theorem scatterRows (Z : FVec Ideal S100000x64 .f32) (C : IVec S1700000x1 32) (U : FVec Ideal S1700000x64 .f32)
    (p : Fin 100000) (k : Fin 64) :
    Host.scatterAdd scatter_S100000x64_S1700000x1_S1700000x64_1_0_0_1 Z C U (ix2 p k)
      = Z (ix2 p k) + ∑ e : Fin 1700000, if (C (ix2 e (0 : Fin 1))).toInt = (p.val : ℤ) then U (ix2 e k) else 0 :=
  scatterAdd_rows_apply scatter_S100000x64_S1700000x1_S1700000x64_1_0_0_1.wf Z C U p k

theorem gatherRows (T : S100000x64.Idx → EReal) (Sc : IVec S1700000x1 32) (e : Fin 1700000) (k : Fin 64) :
    Host.gather gather_S100000x64_S1700000x1_S1700000x64_1_0_n_n_0_1_164 T Sc (ix2 e k)
      = T (ix2 (clampIdx 100000 (by norm_num) (Sc (ix2 e (0 : Fin 1)))) k) :=
  gather_rows_apply (by norm_num) gather_S100000x64_S1700000x1_S1700000x64_1_0_n_n_0_1_164.wf T Sc e k

theorem gatherVec (v : S100000.Idx → EReal) (Sc : IVec S1700000x1 32) (e : Fin 1700000) :
    Host.gather gather_S100000_S1700000x1_S1700000_n_0_n_n_0_1_1 v Sc (ix1 e)
      = v (ix1 (clampIdx 100000 (by norm_num) (Sc (ix2 e (0 : Fin 1))))) :=
  gather_vec_apply (by norm_num) gather_S100000_S1700000x1_S1700000_n_0_n_n_0_1_1.wf v Sc e

/-- One layer's aggregation, from a zero array: row `p`, column `k` is the sum, over the edges whose destination
    word is `p`, of the looked-up row's entry times the edge's weight. -/
theorem agg_apply (Z : FVec Ideal S100000x64 .f32) (hZ : ∀ i, Z i = 0) (C Sc : IVec S1700000x1 32)
    (T : FVec Ideal S100000x64 .f32) (Nm : FVec Ideal S1700000 .f32) (p : Fin 100000) (k : Fin 64) :
    Host.scatterAdd scatter_S100000x64_S1700000x1_S1700000x64_1_0_0_1 Z C
        (mulf (Host.gather gather_S100000x64_S1700000x1_S1700000x64_1_0_n_n_0_1_164 T Sc)
          (broadcastInDim S1700000x64 ![0, 1] bcast_S1700000x1_S1700000x64_0_1
            (broadcastInDim S1700000x1 ![0] bcast_S1700000_S1700000x1_0 Nm))) (ix2 p k)
      = 0 + ∑ e : Fin 1700000, if (C (ix2 e (0 : Fin 1))).toInt = (p.val : ℤ)
          then T (ix2 (clampIdx 100000 (by norm_num) (Sc (ix2 e (0 : Fin 1)))) k) * Nm (ix1 e) else 0 := by
  refine (scatterRows Z C _ p k).trans ?_
  rw [hZ]
  refine congrArg (0 + ·) (Finset.sum_congr rfl fun e _ => ?_)
  rw [mulf_apply, gatherRows, broadcastInDim_a1_ab_apply, column_apply]

/-! ## The index words -/

theorem wsrc19 (e : Fin 1700000) : val_main_v19 (F := Ideal) x1 (ix1 e) = wrap (src x1 e) := by
  rw [val_main_v19_apply, val_main_v16_apply, val_main_v18_apply, val_main_v15_apply, val_main_v17_apply,
    val_main_c_apply, val_main_c_3_apply]; rfl
theorem wsrc40 (e : Fin 1700000) : val_main_v40 (F := Ideal) x1 (ix1 e) = wrap (src x1 e) := by
  rw [val_main_v40_apply, val_main_v37_apply, val_main_v39_apply, val_main_v36_apply, val_main_v38_apply,
    val_main_c_6_apply, val_main_c_7_apply]; rfl
theorem wsrc58 (e : Fin 1700000) : val_main_v58 (F := Ideal) x1 (ix1 e) = wrap (src x1 e) := by
  rw [val_main_v58_apply, val_main_v55_apply, val_main_v57_apply, val_main_v54_apply, val_main_v56_apply,
    val_main_c_9_apply, val_main_c_10_apply]; rfl
theorem wdst26 (e : Fin 1700000) : val_main_v26 (F := Ideal) x1 (ix1 e) = wrap (dst x1 e) := by
  rw [val_main_v26_apply, val_main_v23_apply, val_main_v25_apply, val_main_v22_apply, val_main_v24_apply,
    val_main_c_4_apply, val_main_c_5_apply]; rfl

theorem col20 (e : Fin 1700000) : val_main_v20 (F := Ideal) x1 (ix2 e (0 : Fin 1)) = wrap (src x1 e) :=
  (column_apply _ bcast_S1700000_S1700000x1_0 e 0).trans (wsrc19 x1 e)
theorem col41 (e : Fin 1700000) : val_main_v41 (F := Ideal) x1 (ix2 e (0 : Fin 1)) = wrap (src x1 e) :=
  (column_apply _ bcast_S1700000_S1700000x1_0 e 0).trans (wsrc40 x1 e)
theorem col59 (e : Fin 1700000) : val_main_v59 (F := Ideal) x1 (ix2 e (0 : Fin 1)) = wrap (src x1 e) :=
  (column_apply _ bcast_S1700000_S1700000x1_0 e 0).trans (wsrc58 x1 e)
theorem col27 (e : Fin 1700000) : val_main_v27 (F := Ideal) x1 (ix2 e (0 : Fin 1)) = wrap (dst x1 e) :=
  (column_apply _ bcast_S1700000_S1700000x1_0 e 0).trans (wdst26 x1 e)
theorem col47 (e : Fin 1700000) : val_main_v47 (F := Ideal) x1 (ix2 e (0 : Fin 1)) = dst x1 e :=
  column_apply _ bcast_S1700000_S1700000x1_0 e 0
theorem col65 (e : Fin 1700000) : val_main_v65 (F := Ideal) x1 (ix2 e (0 : Fin 1)) = dst x1 e :=
  column_apply _ bcast_S1700000_S1700000x1_0 e 0

/-- An edge's weight: the product of its end points' scales. -/
theorem norm_apply (e : Fin 1700000) :
    val_main_v29 (F := Ideal) x1 (ix1 e) = dinv x1 (rowOf (src x1 e)) * dinv x1 (rowOf (dst x1 e)) := by
  rw [val_main_v29_apply]
  unfold val_main_v21 val_main_v28
  rw [gatherVec, gatherVec, col20, col27]
  rfl

/-! ## The dense stages -/

theorem idx2_eq {a b : ℕ} (f : (⟨2, ![a, b]⟩ : Shape).Idx) (p : Fin a) (q : Fin b) (h0 : (f 0).val = p.val)
    (h1 : (f 1).val = q.val) : f = ix2 p q :=
  funext fun ax => Fin.ext (by
    match ax with
    | ⟨0, _⟩ => exact h0
    | ⟨1, _⟩ => exact h1)

theorem idx1_eq {a : ℕ} (f : (⟨1, ![a]⟩ : Shape).Idx) (p : Fin a) (h0 : (f 0).val = p.val) : f = ix1 p :=
  funext fun ax => Fin.ext (by
    match ax with
    | ⟨0, _⟩ => exact h0)

variable (x0 : (⟨S100000x32, .f32⟩ : BufTy).Contents (Elt Ideal)) (x2 : (⟨S32x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x16, .f32⟩ : BufTy).Contents (Elt Ideal))
  (x9 : (⟨S16, .f32⟩ : BufTy).Contents (Elt Ideal))

/-- The input projection with its bias, clamped at zero. -/
theorem h0_apply (r : Fin 100000) (k : Fin 64) :
    val_main_v34 (F := Ideal) x0 x2 x3 (ix2 r k)
      = max ((∑ q : Fin 32, x0 (ix2 r q) * x2 (ix2 q k)) + x3 (ix1 k)) 0 := by
  rw [val_main_v34_apply, val_main_v33_apply, val_main_v30_apply, val_main_v32_apply, val_main_v31_apply,
    val_main_call1_v0_apply, val_main_call1_cst_apply]
  simp only [Ideal.maximumf_def, Ideal.addf_def, Ideal.ofBits_def, Ideal.ofBits_zero_f32]
  rw [idx1_eq (idx_main_v31 (idx_main_v32 (ix2 r k))) k rfl]
  refine congrArg (fun z => max (z + x3 (ix1 k)) 0) (Finset.sum_congr rfl fun q _ => ?_)
  rw [idx2_eq (lidx_main_v30 (ix2 r k) q) r q rfl rfl, idx2_eq (ridx_main_v30 (ix2 r k) q) q k rfl rfl]

/-- The first layer's transformed features. -/
theorem t1_apply (r : Fin 100000) (c : Fin 64) :
    val_main_v35 (F := Ideal) x0 x2 x3 x4 (ix2 r c)
      = ∑ k : Fin 64, val_main_v34 (F := Ideal) x0 x2 x3 (ix2 r k) * x4 (ix2 k c) := by
  rw [val_main_v35_apply]
  refine Finset.sum_congr rfl fun k _ => ?_
  rw [idx2_eq (lidx_main_v35 (ix2 r c) k) r k rfl rfl, idx2_eq (ridx_main_v35 (ix2 r c) k) k c rfl rfl]

theorem zero46 (i : S100000x64.Idx) : val_main_v46 (F := Ideal) i = 0 := by
  rw [val_main_v46_apply, val_main_cst_8_apply]
  simp only [Ideal.ofBits_def, Ideal.ofBits_zero_f32]
theorem zero64 (i : S100000x64.Idx) : val_main_v64 (F := Ideal) i = 0 := by
  rw [val_main_v64_apply, val_main_cst_11_apply]
  simp only [Ideal.ofBits_def, Ideal.ofBits_zero_f32]

/-- The first layer's aggregation. -/
theorem agg1 (p : Fin 100000) (k : Fin 64) :
    val_main_v48 (F := Ideal) x0 x1 x2 x3 x4 (ix2 p k)
      = 0 + ∑ e : Fin 1700000, if (dst x1 e).toInt = (p.val : ℤ)
          then val_main_v35 (F := Ideal) x0 x2 x3 x4 (ix2 (rowOf (src x1 e)) k)
            * (dinv x1 (rowOf (src x1 e)) * dinv x1 (rowOf (dst x1 e))) else 0 := by
  unfold val_main_v48 val_main_v45 val_main_v42 val_main_v44 val_main_v43
  refine (agg_apply _ zero46 _ _ _ _ p k).trans ?_
  refine congrArg (0 + ·) (Finset.sum_congr rfl fun e _ => ?_)
  rw [col47, col41, norm_apply]
  rfl

/-- The first layer's output with its bias, clamped at zero. -/
theorem h1_apply (r : Fin 100000) (k : Fin 64) :
    val_main_v52 (F := Ideal) x0 x1 x2 x3 x4 x5 (ix2 r k)
      = max (val_main_v48 (F := Ideal) x0 x1 x2 x3 x4 (ix2 r k) + x5 (ix1 k)) 0 := by
  rw [val_main_v52_apply, val_main_v51_apply, val_main_v50_apply, val_main_v49_apply,
    val_main_call2_v0_apply, val_main_call2_cst_apply]
  simp only [Ideal.maximumf_def, Ideal.addf_def, Ideal.ofBits_def, Ideal.ofBits_zero_f32]
  rw [idx1_eq (idx_main_v49 (idx_main_v50 (ix2 r k))) k rfl]

/-- The second layer's transformed features. -/
theorem t2_apply (r : Fin 100000) (c : Fin 64) :
    val_main_v53 (F := Ideal) x0 x1 x2 x3 x4 x5 x6 (ix2 r c)
      = ∑ k : Fin 64, val_main_v52 (F := Ideal) x0 x1 x2 x3 x4 x5 (ix2 r k) * x6 (ix2 k c) := by
  rw [val_main_v53_apply]
  refine Finset.sum_congr rfl fun k _ => ?_
  rw [idx2_eq (lidx_main_v53 (ix2 r c) k) r k rfl rfl, idx2_eq (ridx_main_v53 (ix2 r c) k) k c rfl rfl]

/-- The second layer's aggregation. -/
theorem agg2 (p : Fin 100000) (k : Fin 64) :
    val_main_v66 (F := Ideal) x0 x1 x2 x3 x4 x5 x6 (ix2 p k)
      = 0 + ∑ e : Fin 1700000, if (dst x1 e).toInt = (p.val : ℤ)
          then val_main_v53 (F := Ideal) x0 x1 x2 x3 x4 x5 x6 (ix2 (rowOf (src x1 e)) k)
            * (dinv x1 (rowOf (src x1 e)) * dinv x1 (rowOf (dst x1 e))) else 0 := by
  unfold val_main_v66 val_main_v63 val_main_v60 val_main_v62 val_main_v61
  refine (agg_apply _ zero64 _ _ _ _ p k).trans ?_
  refine congrArg (0 + ·) (Finset.sum_congr rfl fun e _ => ?_)
  rw [col65, col59, norm_apply]
  rfl

/-- The second layer's output with its bias, clamped at zero. -/
theorem h2_apply (r : Fin 100000) (k : Fin 64) :
    val_main_v70 (F := Ideal) x0 x1 x2 x3 x4 x5 x6 x7 (ix2 r k)
      = max (val_main_v66 (F := Ideal) x0 x1 x2 x3 x4 x5 x6 (ix2 r k) + x7 (ix1 k)) 0 := by
  rw [val_main_v70_apply, val_main_v69_apply, val_main_v68_apply, val_main_v67_apply,
    val_main_call3_v0_apply, val_main_call3_cst_apply]
  simp only [Ideal.maximumf_def, Ideal.addf_def, Ideal.ofBits_def, Ideal.ofBits_zero_f32]
  rw [idx1_eq (idx_main_v67 (idx_main_v68 (ix2 r k))) k rfl]

/-- The result: the final linear map and its bias. -/
theorem out_apply (r : Fin 100000) (c : Fin 16) :
    val_main_v74 (F := Ideal) x0 x1 x2 x3 x4 x5 x6 x7 x8 x9 (ix2 r c)
      = (∑ k : Fin 64, val_main_v70 (F := Ideal) x0 x1 x2 x3 x4 x5 x6 x7 (ix2 r k) * x8 (ix2 k c)) + x9 (ix1 c) := by
  rw [val_main_v74_apply, val_main_v71_apply, val_main_v73_apply, val_main_v72_apply]
  simp only [Ideal.addf_def]
  rw [idx1_eq (idx_main_v72 (idx_main_v73 (ix2 r c))) c rfl]
  refine congrArg (· + x9 (ix1 c)) (Finset.sum_congr rfl fun k _ => ?_)
  rw [idx2_eq (lidx_main_v71 (ix2 r c) k) r k rfl rfl, idx2_eq (ridx_main_v71 (ix2 r c) k) k c rfl rfl]

end Cert.ReferenceIdeal.RefValue

end
-- ==== Proof.Bridge.lean ====
/-
  The fused kernel stages compose to the reference.

  The kernel scales the transformed features of node `r` by `dinv r` before they are looked up along the edges, sums
  the looked-up rows over the edges that end in a node `p`, and scales the sum by `dinv p` in the next stage. The
  reference multiplies each looked-up row by the edge's weight `dinv (src e) · dinv (dst e)` and then sums. On the edges
  that end in `p` the second factor is `dinv p`, a nonnegative number that is not `+∞`, so it moves out of the sum:
  the two agree layer by layer, and so do the dense stages around them, which are the same sums on both sides.
-/
import proofs.«152736_j48739288875467_2_alg».proof.Proof.RefIdx
import proofs.«152736_j48739288875467_2_alg».proof.Proof.Spec

noncomputable section

open scoped BigOperators

namespace Cert.ReferenceIdeal.RefValue

open Cert.ReferenceIdeal Cert.ReferenceIdeal.ReadP Cert.Lib.Segment Cert.Lib.Rows Cert.Lib.ScaledSum Cert.Gcn
open Idealize.ShloMosaic Idealize.ShloMosaic.ValueIdx

variable [hR : Cert.ReferenceIdeal.Facts]

variable (x0 : (⟨S100000x32, .f32⟩ : BufTy).Contents (Elt Ideal)) (x1 : (⟨S2x1600000, .i32⟩ : BufTy).Contents (Elt Ideal))
  (x2 : (⟨S32x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x16, .f32⟩ : BufTy).Contents (Elt Ideal))
  (x9 : (⟨S16, .f32⟩ : BufTy).Contents (Elt Ideal))

variable (wfS : ScatterDims.WF ⟨2, ![100000, 64]⟩ ⟨2, ![1700000, 1]⟩ ⟨2, ![1700000, 64]⟩ [1] [0] [0] 1)
  (wfG : GatherDims.WF ⟨2, ![100000, 64]⟩ ⟨2, ![1700000, 1]⟩ ⟨2, ![1700000, 64]⟩ [1] [0] [] [0] [] 1 ![1, 64])
  (Z : Mat 100000 64) (C Sc : IVec ⟨2, ![1700000, 1]⟩ 32)

/-- The kernel's aggregation of an array of rows: the rows looked up at the edges' sources, summed into the edges'
    destinations from a zero array. -/
def aggK (A : Mat 100000 64) : Mat 100000 64 :=
  Host.scatterAdd (F := Ideal) (φ := .f32) (scat2 100000 64 1700000 wfS) Z C (Host.gather (gath2 100000 64 1700000 wfG) A Sc)

/-- One layer: rows pre-scaled by their node's scale, aggregated, and post-scaled by the destination's scale are the
    reference's weighted aggregation of the unscaled rows. -/
theorem layer (hZ : ∀ i, Z i = 0) (hC : ∀ e, C (ix2 e (0 : Fin 1)) = dst x1 e)
    (hS : ∀ e, Sc (ix2 e (0 : Fin 1)) = wrap (src x1 e))
    (A T : Mat 100000 64) (hA : ∀ r k, A (ix2 r k) = T (ix2 r k) * dinv x1 r) (p : Fin 100000) (k : Fin 64) :
    dinv x1 p * aggK wfS wfG Z C Sc A (ix2 p k)
      = 0 + ∑ e : Fin 1700000, if (dst x1 e).toInt = (p.val : ℤ)
          then T (ix2 (rowOf (src x1 e)) k) * (dinv x1 (rowOf (src x1 e)) * dinv x1 (rowOf (dst x1 e))) else 0 := by
  unfold aggK
  rw [scatterAdd_rows_apply wfS Z C _ p k, hZ]
  have e1 : ∀ e : Fin 1700000, (if (C (ix2 e (0 : Fin 1))).toInt = (p.val : ℤ)
        then Host.gather (gath2 100000 64 1700000 wfG) A Sc (ix2 e k) else 0)
      = if (dst x1 e).toInt = (p.val : ℤ) then T (ix2 (rowOf (src x1 e)) k) * dinv x1 (rowOf (src x1 e)) else 0 := by
    intro e
    rw [hC, gather_rows_apply (by norm_num) wfG A Sc e k, hS, hA]
    rfl
  rw [Finset.sum_congr rfl fun e _ => e1 e]
  exact scale_segment (fun e => (dst x1 e).toInt = (p.val : ℤ)) (fun e => T (ix2 (rowOf (src x1 e)) k))
    (fun e => dinv x1 (rowOf (src x1 e))) (fun e => dinv x1 (rowOf (dst x1 e))) (dinv x1 p)
    (dinv_bounds x1 p).1 (dinv_bounds x1 p).2 (fun e he => by rw [rowOf_of_toInt _ p he])

variable (D : Mat 100000 1) (B0 B1 B2 : Mat 1 64) (B3 : Mat 1 16)

/-- The three fused stages, chained through the two aggregations, are the reference's result. -/
theorem bridge (hZ : ∀ i, Z i = 0) (hC : ∀ e, C (ix2 e (0 : Fin 1)) = dst x1 e)
    (hS : ∀ e, Sc (ix2 e (0 : Fin 1)) = wrap (src x1 e))
    (hD : ∀ p, D (ix2 p (0 : Fin 1)) = dinv x1 p)
    (hB0 : ∀ k, B0 (ix2 (0 : Fin 1) k) = x3 (ix1 k)) (hB1 : ∀ k, B1 (ix2 (0 : Fin 1) k) = x5 (ix1 k))
    (hB2 : ∀ k, B2 (ix2 (0 : Fin 1) k) = x7 (ix1 k)) (hB3 : ∀ c, B3 (ix2 (0 : Fin 1) c) = x9 (ix1 c)) :
    K2 (aggK wfS wfG Z C Sc (K1 (aggK wfS wfG Z C Sc (K0 x0 x2 B0 x4 D)) D B1 x6)) D B2 x8 B3
      = val_main_v74 (F := Ideal) x0 x1 x2 x3 x4 x5 x6 x7 x8 x9 := by
  -- the first stage: the first layer's transformed features, scaled by the node's scale
  have hA1 : ∀ r k, K0 x0 x2 B0 x4 D (ix2 r k) = val_main_v35 (F := Ideal) x0 x2 x3 x4 (ix2 r k) * dinv x1 r := by
    intro r k
    show k0 x0 x2 B0 x4 D r k = _
    unfold k0
    rw [t1_apply, hD]
    refine congrArg (· * dinv x1 r) (Finset.sum_congr rfl fun j _ => ?_)
    rw [h0_apply, hB0]
  -- the second stage: the second layer's transformed features, scaled by the node's scale
  have hA2 : ∀ r k, K1 (aggK wfS wfG Z C Sc (K0 x0 x2 B0 x4 D)) D B1 x6 (ix2 r k)
      = val_main_v53 (F := Ideal) x0 x1 x2 x3 x4 x5 x6 (ix2 r k) * dinv x1 r := by
    intro r k
    show k1 (aggK wfS wfG Z C Sc (K0 x0 x2 B0 x4 D)) D B1 x6 r k = _
    unfold k1
    rw [t2_apply, hD]
    refine congrArg (· * dinv x1 r) (Finset.sum_congr rfl fun j _ => ?_)
    rw [h1_apply, hB1, layer x1 wfS wfG Z C Sc hZ hC hS _ _ hA1, agg1]
  funext i
  obtain ⟨p, c, rfl⟩ : ∃ (p : Fin 100000) (c : Fin 16), i = ix2 p c := ⟨i 0, i 1, eq_ix2 i⟩
  show k2 _ D B2 x8 B3 p c = _
  unfold k2
  rw [out_apply, hB3]
  refine congrArg (· + x9 (ix1 c)) (Finset.sum_congr rfl fun j _ => ?_)
  rw [h2_apply, hD, hB2, layer x1 wfS wfG Z C Sc hZ hC hS _ _ hA2, agg2]

end Cert.ReferenceIdeal.RefValue

end
-- ==== Proof.Value.lean ====
/-
  The idealized kernel's result is the reference's result of the same arguments.

  The kernel's result is its three fused stages chained through two aggregations along the edges; the scales' column,
  the bias rows, the zero array and the edge tables it uses are the reference's own stages of the edge table, reshaped.
  Read entry by entry they are what the layer-by-layer comparison asks for.
-/
import proofs.«152736_j48739288875467_2_alg».proof.Proof.KHost
import proofs.«152736_j48739288875467_2_alg».proof.Proof.Bridge

set_option maxRecDepth 16384

noncomputable section

namespace Cert.KernelIdeal.HostValue

open Cert.KernelIdeal Cert.KernelIdeal.Gen Cert.Gcn
open Cert.ReferenceIdeal.ReadP Cert.ReferenceIdeal.RefValue Cert.Lib.Segment
open Idealize.ShloMosaic Idealize.ShloMosaic.TcCoe Idealize.SL.Sem Idealize.ShloMosaic.ValueIdx

variable [hK : Cert.KernelIdeal.Facts] [hR : Cert.ReferenceIdeal.Facts]

/-! ## Reshapes of a vector -/

/-- A length-`n` vector reshaped to an `n × 1` column reads, at row `p`, the vector at `p`. -/
theorem column_of_vec {α : Type} {n : ℕ} (v : (⟨1, ![n]⟩ : Shape).Idx → α)
    (h : (⟨1, ![n]⟩ : Shape).ShapeCasts ⟨2, ![n, 1]⟩) (p : Fin n) (u : Fin 1) :
    shapeCast ⟨2, ![n, 1]⟩ v h (ix2 p u) = v (ix1 p) :=
  shapeCast_apply v h (ix2 p u) (ix1 p) (by
    rw [Shape.rowMajor_val_one, Shape.rowMajor_val_two]
    show p.val = p.val * 1 + u.val
    have := u.isLt; omega)

/-- A length-`n` vector reshaped to a `1 × n` row reads, at column `k`, the vector at `k`. -/
theorem row_of_vec {α : Type} {n : ℕ} (v : (⟨1, ![n]⟩ : Shape).Idx → α)
    (h : (⟨1, ![n]⟩ : Shape).ShapeCasts ⟨2, ![1, n]⟩) (u : Fin 1) (k : Fin n) :
    shapeCast ⟨2, ![1, n]⟩ v h (ix2 u k) = v (ix1 k) :=
  shapeCast_apply v h (ix2 u k) (ix1 k) (by
    rw [Shape.rowMajor_val_one, Shape.rowMajor_val_two]
    show k.val = u.val * n + k.val
    have hu : u.val = 0 := by have := u.isLt; omega
    rw [hu]; omega)

/-! ## The host's aggregation is the layer comparison's -/

/-- The aggregation as the host spells it — the looked-up rows widened before they are summed — is the aggregation the
    layer comparison is stated for: on the extended reals widening is the identity. -/
theorem aggHost_eq (dstV srcV : (⟨S1700000, .i32⟩ : BufTy).Contents (Elt Ideal))
    (A : (⟨S100000x64, .bf16⟩ : BufTy).Contents (Elt Ideal)) :
    aggHost dstV srcV A
      = aggK scatter_S100000x64_S1700000x1_S1700000x64_1_0_0_1.wf gather_S100000x64_S1700000x1_S1700000x64_1_0_n_n_0_1_164.wf
          (broadcastInDim S100000x64 ![] bcast_S_S100000x64 (constant (F := Ideal) S_ .f32 0x00000000#32))
          (broadcastInDim S1700000x1 ![0] bcast_S1700000_S1700000x1_0 dstV)
          (broadcastInDim S1700000x1 ![0] bcast_S1700000_S1700000x1_0
            (select (cmpi .slt srcV (broadcastInDim S1700000 ![] bcast_S_S1700000 (constantI S_ 32 0#32)))
              (addi srcV (broadcastInDim S1700000 ![] bcast_S_S1700000 (constantI S_ 32 100000#32))) srcV)) A :=
  rfl

/-! ## The result -/

/-- On every device the kernel's result buffer ends at the reference's result of the launch memory's arguments. -/
theorem kernel_value (m : (ℓ : Loc nD τ sig) → Buf (Elt Ideal) ℓ) (ρ : Dev nD → PrngReg) (c : Dev nD) :
    W8 m ρ c (Proc.devRef .tc main_v44)
      = val_main_v74 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  rw [result_W8]
  simp only [aggHost_eq]
  refine bridge _ (m ((c : Thread nD τ).loc main_arg1)) _ (m ((c : Thread nD τ).loc main_arg3)) _
    (m ((c : Thread nD τ).loc main_arg5)) _ (m ((c : Thread nD τ).loc main_arg7)) _ (m ((c : Thread nD τ).loc main_arg9))
    _ _ _ _ _ _ _ _ _ _ ?hZ ?hC ?hS ?hD ?hB0 ?hB1 ?hB2 ?hB3
  case hZ =>
    intro i
    exact (Cert.Lib.Rows.broadcastInDim_scalar_apply _ _ bcast_S_S100000x64 i).trans Ideal.ofBits_zero_f32
  case hC =>
    intro e
    exact column_apply _ bcast_S1700000_S1700000x1_0 e 0
  case hS =>
    intro e
    refine (column_apply _ bcast_S1700000_S1700000x1_0 e 0).trans ?_
    show Scalar.select (IntOp.cmpi .slt (src _ e) (broadcastInDim S1700000 ![] bcast_S_S1700000 (constantI S_ 32 0#32) (ix1 e)))
      (IntOp.addi (src _ e) (broadcastInDim S1700000 ![] bcast_S_S1700000 (constantI S_ 32 100000#32) (ix1 e))) (src _ e) = _
    rw [Cert.Lib.Rows.broadcastInDim_scalar_apply, Cert.Lib.Rows.broadcastInDim_scalar_apply]
    rfl
  case hD =>
    intro p
    exact column_of_vec _ shapeCasts_S100000_S100000x1 p 0
  case hB0 =>
    intro k
    exact row_of_vec _ shapeCasts_S64_S1x64 0 k
  case hB1 =>
    intro k
    exact row_of_vec _ shapeCasts_S64_S1x64 0 k
  case hB2 =>
    intro k
    exact row_of_vec _ shapeCasts_S64_S1x64 0 k
  case hB3 =>
    intro k
    exact row_of_vec _ shapeCasts_S16_S1x16 0 k

end Cert.KernelIdeal.HostValue

end
-- ==== Proof.lean ====
/-
  A two-layer graph convolution over 100000 nodes and 1600000 edges (plus one self-loop per node), as three fused
  grid kernels with the edge passes between them on the host, against the plain reference.

  With `dinv` the inverse square root of a node's number of incoming edges (zero where there are none) the reference
  weighs the message along an edge by `dinv (src e) · dinv (dst e)`. The kernel splits the weight: each fused stage
  scales the rows it produces by `dinv` of their own node before the host looks them up along the edges and sums them
  into the destinations, and the next stage scales the sums by `dinv` of the destination before the bias and the clamp
  at zero. On the extended reals the destination's scale moves out of the sum because it is a nonnegative number that
  is not `+∞`; a look-up reads a negative index from the end and clamps it, a sum drops an edge whose destination is
  not a row, and on the edges that are kept the looked-up scale of the destination is the row's own. The dense parts
  (input projection, the two layers' weights, the final linear map, the biases, the clamps) are the same sums on both
  sides; changes of float format are the identity on the extended reals.

  The three frames: the two kernel programs' are the several-region frame certificates; the reference's is its run with
  the result dropped. The idealization rewrote nothing, so it is preserved trivially. For the value claim both runs are
  stated with the same result: the reference's result of the launch memory's arguments.
-/
import proofs.«152736_j48739288875467_2_alg».proof.Defs
import proofs.«152736_j48739288875467_2_alg».proof.Proof.Gen.Kernel
import proofs.«152736_j48739288875467_2_alg».proof.Proof.Gen.Kernel.Skeleton
import proofs.«152736_j48739288875467_2_alg».proof.Proof.Gen.Kernel.Launch
import proofs.«152736_j48739288875467_2_alg».proof.Proof.Gen.Kernel.Points
import proofs.«152736_j48739288875467_2_alg».proof.Proof.Gen.Kernel.Frame
import proofs.«152736_j48739288875467_2_alg».proof.Proof.Gen.KernelIdeal
import proofs.«152736_j48739288875467_2_alg».proof.Proof.Gen.KernelIdeal.Skeleton
import proofs.«152736_j48739288875467_2_alg».proof.Proof.Gen.KernelIdeal.Launch
import proofs.«152736_j48739288875467_2_alg».proof.Proof.Gen.KernelIdeal.Points
import proofs.«152736_j48739288875467_2_alg».proof.Proof.Gen.KernelIdeal.Frame
import proofs.«152736_j48739288875467_2_alg».proof.Proof.Gen.ReferenceIdeal
import proofs.«152736_j48739288875467_2_alg».proof.Proof.Gen.Pre_finite_inputs
import proofs.«152736_j48739288875467_2_alg».proof.Proof.RefRunP
import proofs.«152736_j48739288875467_2_alg».proof.Proof.RefReadP
import proofs.«152736_j48739288875467_2_alg».proof.Proof.KRun
import proofs.«152736_j48739288875467_2_alg».proof.Proof.Value
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel :=
  fun m ρ _ => Cert.Kernel.Gen.frame m ρ

/-- The idealized kernel runs and leaves its arguments unchanged. -/
theorem frame_kernelIdeal : Cert.frame_KernelIdeal :=
  fun m ρ _ => Cert.KernelIdeal.Gen.frame m ρ

/-- The idealized reference runs and leaves its arguments unchanged: its run with the result dropped. -/
theorem frame_referenceIdeal : Cert.frame_ReferenceIdeal :=
  fun m ρ _ => (θ_run Cert.ReferenceIdeal.defs _ _).mono (fun _ h c => (h c).2)
    (Cert.ReferenceIdeal.ValueP.run (F := Ideal) m ρ)

/-- From memories that agree on the arguments both idealized programs end with the reference's result of those
    arguments. -/
theorem algebraic : Cert.algebraic_KernelIdeal_ReferenceIdeal := by
  intro m ρ m' ρ' _ hagree
  refine ⟨fun c => Cert.ReferenceIdeal.ReadP.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostValue.kernel_value m ρ c), (h c).2⟩)
      (Cert.KernelIdeal.RunValue.run_result (F := Ideal) m ρ)
  · refine (θ_run Cert.ReferenceIdeal.defs _ _).mono (fun r h c => ⟨?_, (h c).2⟩)
      (Cert.ReferenceIdeal.ValueP.run (F := Ideal) m' ρ')
    obtain ⟨h0, h1, h2, h3, h4, h5, h6, h7, h8, h9⟩ := hagree c
    rw [(h c).1, Cert.ReferenceIdeal.ReadP.val_main_v74_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
